-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x243x17x256 : Shape := ⟨4, ![32, 243, 17, 256]⟩
abbrev S_ : Shape := ⟨0, ![]⟩

class Facts : Prop where
  bcast_S_S32x243x17x256 : S_.BroadcastsInDim S32x243x17x256 (![] : Fin 0 → Fin S32x243x17x256.rank)
  reducesTo_S32x243x17x256_S_d0_1_2_3 : S32x243x17x256.ReducesTo [0, 1, 2, 3] S_
  h_S_ : 0 < S_.numel

variable [Facts]

def fn {F : FTy → Type} [FloatOps F] (main_arg0 : FVec F S32x243x17x256 .f32) : IVec S_ 1 :=
  let main_v0 : FVec F S32x243x17x256 .f32 := Host.absf main_arg0
  let main_cst : FVec F S_ .f32 := constant S_ .f32 0x7F800000#32
  let main_v1 : FVec F S32x243x17x256 .f32 := broadcastInDim S32x243x17x256 ![] bcast_S_S32x243x17x256 main_cst
  let main_v2 : IVec S32x243x17x256 1 := cmpf .olt main_v0 main_v1
  let main_c : IVec S_ 1 := constantI S_ 1 1#1
  let main_v3 : IVec S_ 1 := (fun x v => Host.reduce IntOp.andi x v reducesTo_S32x243x17x256_S_d0_1_2_3 h_S_) main_v2 main_c
  main_v3
-- ==== Kernel.lean ====
abbrev S32x243x17x256 : Shape := ⟨4, ![32, 243, 17, 256]⟩
abbrev S243x17x32x256 : Shape := ⟨4, ![243, 17, 32, 256]⟩
abbrev S33841152 : Shape := ⟨1, ![33841152]⟩
abbrev S33048 : Shape := ⟨1, ![33048]⟩
abbrev S_ : Shape := ⟨0, ![]⟩

abbrev nBuf : Table → Nat
  | .hbm => 6
  | .local .scVector .vmem => 3
  | _ => 0

abbrev bufTy : (tb : Table) → Fin (nBuf tb) → BufTy
  | .hbm, ⟨0, _⟩ => ⟨S32x243x17x256, .f32⟩
  | .hbm, ⟨1, _⟩ => ⟨S243x17x32x256, .f32⟩
  | .hbm, ⟨2, _⟩ => ⟨S33841152, .f32⟩
  | .hbm, ⟨3, _⟩ => ⟨S33841152, .f32⟩
  | .hbm, ⟨4, _⟩ => ⟨S243x17x32x256, .f32⟩
  | .hbm, ⟨5, _⟩ => ⟨S32x243x17x256, .f32⟩
  | .local .scVector .vmem, ⟨0, _⟩ => ⟨S33048, .f32⟩
  | .local .scVector .vmem, ⟨1, _⟩ => ⟨S33048, .f32⟩
  | .local .scVector .vmem, ⟨2, _⟩ => ⟨S33048, .f32⟩
  | _, _ => ⟨S32x243x17x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v1_scv : Ref sig .scVector := ⟨.hbm, 2, rfl⟩
abbrev main_v2_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1057536_i32 : BitVec 32 := 1057536#32
  let v2 : BitVec 32 := Scalar.muli v1 c1057536_i32
  let v3 : BitVec 32 := Scalar.addi v2 c0_i32
  ![v3.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S32x243x17x256_S243x17x32x256_1_2_0_3 : S32x243x17x256.Transposes [1, 2, 0, 3] S243x17x32x256
  shapeCasts_S243x17x32x256_S33841152 : S243x17x32x256.ShapeCasts S33841152
  shapeCasts_S33841152_S243x17x32x256 : S33841152.ShapeCasts S243x17x32x256
  transposes_S243x17x32x256_S32x243x17x256_2_0_1_3 : S243x17x32x256.Transposes [2, 0, 1, 3] S32x243x17x256
  hcc0_scratch3 : 0 + S_.numel ≤ 6
  hcc0_scratch4 : 1 + S_.numel ≤ 6
  hcc0_scratch5 : 2 + S_.numel ≤ 6
  hcc0_scratch6 : 3 + S_.numel ≤ 6
  hcc0_scratch7 : 4 + S_.numel ≤ 6
  hcc0_scratch8 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 32), ∀ a, (k0_off1 i (BitVec.ofNat 32 (33048 * r.val))) a + S33048.size a ≤ S33841152.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8

class Facts : Prop extends Facts₀ where

variable [Facts]
-- ==== ReferenceIdeal.lean ====
abbrev S32x243x17x256 : Shape := ⟨4, ![32, 243, 17, 256]⟩
abbrev S17 : Shape := ⟨1, ![17]⟩
abbrev S_ : Shape := ⟨0, ![]⟩
abbrev S17x1 : Shape := ⟨2, ![17, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S32x243x17x256, .f32⟩
  | .hbm, ⟨1, _⟩ => ⟨S17, .i32⟩
  | .hbm, ⟨2, _⟩ => ⟨S_, .i32⟩
  | .hbm, ⟨3, _⟩ => ⟨S17, .i32⟩
  | .hbm, ⟨4, _⟩ => ⟨S17, .i1⟩
  | .hbm, ⟨5, _⟩ => ⟨S_, .i32⟩
  | .hbm, ⟨6, _⟩ => ⟨S17, .i32⟩
  | .hbm, ⟨7, _⟩ => ⟨S17, .i32⟩
  | .hbm, ⟨8, _⟩ => ⟨S17, .i32⟩
  | .hbm, ⟨9, _⟩ => ⟨S17x1, .i32⟩
  | .hbm, ⟨10, _⟩ => ⟨S1, .i32⟩
  | .hbm, ⟨11, _⟩ => ⟨S_, .i32⟩
  | .hbm, ⟨12, _⟩ => ⟨S17x1, .i32⟩
  | .hbm, ⟨13, _⟩ => ⟨S17x1, .i1⟩
  | .hbm, ⟨14, _⟩ => ⟨S1x1, .i32⟩
  | .hbm, ⟨15, _⟩ => ⟨S17x1, .i32⟩
  | .hbm, ⟨16, _⟩ => ⟨S17x1, .i1⟩
  | .hbm, ⟨17, _⟩ => ⟨S17x1, .i1⟩
  | .hbm, ⟨18, _⟩ => ⟨S_, .i1⟩
  | .hbm, ⟨19, _⟩ => ⟨S17, .i1⟩
  | .hbm, ⟨20, _⟩ => ⟨S32x243x17x256, .f32⟩
  | .hbm, ⟨21, _⟩ => ⟨S32x243x17x256, .i1⟩
  | .hbm, ⟨22, _⟩ => ⟨S_, .f32⟩
  | .hbm, ⟨23, _⟩ => ⟨S32x243x17x256, .f32⟩
  | .hbm, ⟨24, _⟩ => ⟨S32x243x17x256, .f32⟩
  | _, _ => ⟨S32x243x17x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S17 : S_.BroadcastsInDim S17 (![] : Fin 0 → Fin S17.rank)
  bcast_S17_S17x1_0 : S17.BroadcastsInDim S17x1 (![0] : Fin 1 → Fin S17x1.rank)
  bcast_S_S17x1 : S_.BroadcastsInDim S17x1 (![] : Fin 0 → Fin S17x1.rank)
  bcast_S1_S1x1_1 : S1.BroadcastsInDim S1x1 (![1] : Fin 1 → Fin S1x1.rank)
  bcast_S1x1_S17x1_0_1 : S1x1.BroadcastsInDim S17x1 (![0, 1] : Fin 2 → Fin S17x1.rank)
  reducesTo_S17x1_S17_d1 : S17x1.ReducesTo [1] S17
  h_S_ : 0 < S_.numel
  bcast_S17_S32x243x17x256_2 : S17.BroadcastsInDim S32x243x17x256 (![2] : Fin 1 → Fin S32x243x17x256.rank)
  bcast_S_S32x243x17x256 : S_.BroadcastsInDim S32x243x17x256 (![] : Fin 0 → Fin S32x243x17x256.rank)
  gather_S32x243x17x256_S17x1_S32x243x17x256_013_2_n_n_2_1_322431256_wf : GatherDims.WF S32x243x17x256 S17x1 S32x243x17x256 [0, 1, 3] [2] [] [2] [] 1 ![32, 243, 1, 256]

variable [Facts₀]

def gather_S32x243x17x256_S17x1_S32x243x17x256_013_2_n_n_2_1_322431256 : GatherDims S32x243x17x256 S17x1 S32x243x17x256 where
  offsetDims := [0, 1, 3]
  collapsedSliceDims := [2]
  operandBatchingDims := []
  startIndicesBatchingDims := []
  startIndexMap := [2]
  indexVectorDim := 1
  sliceSizes := ![32, 243, 1, 256]
  wf := gather_S32x243x17x256_S17x1_S32x243x17x256_013_2_n_n_2_1_322431256_wf

class Facts : Prop extends Facts₀ where

variable [Facts]
-- ==== Proof.Chunks.lean ====
/-
  The flat array of 33,841,152 elements cut into 1,024 consecutive chunks of 33,048: chunk `t` is the elements
  `[33048·t, 33048·(t+1))`. Tile `s` of SparseCore `c` is worker `2·s + c`; its `g`-th chunk is chunk number
  `(2·s + c)·32 + g`. The triples `(c, s, g)` number the chunks bijectively, so the pieces they name are pairwise
  disjoint and cover the array.
-/
import Idealize.ShloMosaic.Shape
import Idealize.ShloMosaic.Lib.ValueIdx

namespace Cert.Proof.Chunks

open Idealize.ShloMosaic

abbrev N : Shape := ⟨1, ![33841152]⟩
abbrev C : Shape := ⟨1, ![33048]⟩

theorem hdiv : 1024 ∣ N.size 0 := ⟨33048, rfl⟩

/-- Chunk `t`: the `t`-th of the 1,024 equal parts of the array. -/
abbrev chunk (t : Fin 1024) : Rect N := Rect.part (s := N) (a₀ := 0) hdiv t

/-- The number of the `g`-th chunk of tile `s` of SparseCore `c`. -/
def tOf (c : Fin 2) (s : Fin 16) (g : Fin 32) : Fin 1024 := ⟨(2 * s.val + c.val) * 32 + g.val, by omega⟩

theorem tOf_val (c : Fin 2) (s : Fin 16) (g : Fin 32) : (tOf c s g).val = (2 * s.val + c.val) * 32 + g.val := rfl

/-- The piece a triple names. -/
abbrev piece (a : Fin 2 × Fin 16 × Fin 32) : Finset N.Idx := (chunk (tOf a.1 a.2.1 a.2.2)).set

/-- The rectangle of 33,048 elements at offset `33048·t` is chunk `t`: both are unit-stride rectangles, so it is
    enough that their offsets and their sizes agree on the one axis. The part's thickness is 33841152 / 1024 = 33048
    and its block index is `t`, so its offset is `t · 33048`. -/
theorem unit_eq_chunk (t : Fin 1024) (off : Fin 1 → Nat) (hoff : off = ![33048 * t.val]) (h : ∀ a, off a + C.size a ≤ N.size a) :
    Rect.unit (s := N) off C.size h = chunk t := by
  subst hoff
  unfold chunk Rect.part Rect.block
  congr 1 <;> funext a
  · match a with
    | 0 => simp [Shape.partIx, Shape.partSize, Nat.mul_comm]
  · match a with
    | 0 => simp [Shape.partSize]

/-- The chunk number determines the triple: with `t = (2·s + c)·32 + g`, `g < 32` and `c < 2`, one has
    `g = t % 32`, `c = (t / 32) % 2` and `s = t / 64`. -/
theorem tOf_injective {c c' : Fin 2} {s s' : Fin 16} {g g' : Fin 32} (h : tOf c s g = tOf c' s' g') :
    c = c' ∧ s = s' ∧ g = g' := by
  have hv : (2 * s.val + c.val) * 32 + g.val = (2 * s'.val + c'.val) * 32 + g'.val := by
    simpa [tOf_val] using congrArg Fin.val h
  refine ⟨Fin.ext ?_, Fin.ext ?_, Fin.ext ?_⟩ <;> omega

/-- Distinct triples name distinct chunks, and distinct parts of one cut are disjoint. -/
theorem pieces_disjoint : ∀ a ∈ (Finset.univ : Finset (Fin 2 × Fin 16 × Fin 32)), ∀ b ∈ (Finset.univ : Finset (Fin 2 × Fin 16 × Fin 32)),
    a ≠ b → Disjoint (piece a) (piece b) := by
  rintro ⟨c, s, g⟩ - ⟨c', s', g'⟩ - hne
  refine Rect.part_disjoint hdiv fun e => hne ?_
  obtain ⟨hc, hs, hg⟩ : c = c' ∧ s = s' ∧ g = g' := tOf_injective e
  rw [hc, hs, hg]

/-- Every element lies in some chunk `t`, and chunk `t` is the piece of the triple
    `(c, s, g) = ((t / 32) % 2, t / 64, t % 32)`, since `(2·(t / 64) + (t / 32) % 2)·32 + t % 32 = t`. -/
theorem pieces_cover : (Finset.univ : Finset (Fin 2 × Fin 16 × Fin 32)).biUnion piece = Finset.univ := by
  ext i
  simp only [Finset.mem_biUnion, Finset.mem_univ, true_and, iff_true]
  obtain ⟨t, ht⟩ := Rect.exists_mem_part (s := N) (a₀ := 0) hdiv i
  refine ⟨(⟨(t.val / 32) % 2, by omega⟩, ⟨t.val / 64, by omega⟩, ⟨t.val % 32, by omega⟩), ?_⟩
  have e : tOf ⟨(t.val / 32) % 2, by omega⟩ ⟨t.val / 64, by omega⟩ ⟨t.val % 32, by omega⟩ = t := by
    apply Fin.ext
    rw [tOf_val]
    show (2 * (t.val / 64) + (t.val / 32) % 2) * 32 + t.val % 32 = t.val
    omega
  show i ∈ (chunk (tOf _ _ _)).set
  rw [e]
  exact ht

end Cert.Proof.Chunks
-- ==== Proof.SetupKB.lean ====
/-
  The copy kernel as the SparseCore launch theorem sees it, and what its one call carries.

  The flat source array (the transposed, flattened argument) and the flat destination array are cut into 1,024
  chunks of 33,048 elements. Tile `s` of SparseCore `c` is worker `2·s + c` and moves its 32 consecutive chunks,
  one at a time, from the source through one of three scratch buffers to the same place in the destination. The
  call hands each SparseCore its sixteen tiles' chunks of both arrays, each tile its 32 chunks, and brings them back
  with every destination chunk holding the source's elements.
-/
import proofs.«208078_g33122787787296_cont_8to1_b_435_17_alg».proof.Defs
import Idealize.ShloMosaic.Lib.SparseCore.Launch
import Idealize.ShloMosaic.Lib.StableHlo.Run
import Idealize.ShloMosaic.Lib.Pipeline.Kit
import Idealize.ShloMosaic.Lib.Tactic
import proofs.«208078_g33122787787296_cont_8to1_b_435_17_alg».proof.Proof.Gen.Kernel
import proofs.«208078_g33122787787296_cont_8to1_b_435_17_alg».proof.Proof.Gen.Kernel.Skeleton
import proofs.«208078_g33122787787296_cont_8to1_b_435_17_alg».proof.Proof.Chunks

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The two flat arrays and their chunks -/

/-- The source (the flattened, transposed argument) and the destination (the kernel's result), as device `d`'s locations. -/
abbrev srcLoc (d : Dev nD) : Loc nD τ sig := (SparseCore.T d).loc main_v1
abbrev dstLoc (d : Dev nD) : Loc nD τ sig := (SparseCore.T d).loc main_v2

/-- A flat array's contents. -/
abbrev Flat (F : FTy → Type) : Type := S33841152.Idx → Elt F .f32

/-- Chunk `a = (c, s, g)` of both arrays: the source's at `X`, the destination's at `f`. -/
def pieceRes (d : Dev nD) (X f : Flat F) (a : Fin 2 × Fin 16 × Fin 32) : sProp 𝕄 :=
  iprop((srcLoc d ↦[Chunks.piece a]{fullShare} X) ∗ (dstLoc d ↦[Chunks.piece a]{fullShare} f))

instance pieceRes_storable (d : Dev nD) (X f : Flat F) (a : Fin 2 × Fin 16 × Fin 32) :
    BI.Storable (upEmb : UEmb _ 𝕄) (pieceRes d X f a) := by unfold pieceRes; infer_instance

/-- A tile's 32 chunks. -/
def tileRes (d : Dev nD) (X f : Flat F) (c : Fin 2) (s : Fin 16) : sProp 𝕄 :=
  bigSep Finset.univ fun g : Fin 32 => pieceRes d X f (c, s, g)

/-- A SparseCore's sixteen tiles' chunks. -/
def coreRes (d : Dev nD) (X f : Flat F) (c : Fin 2) : sProp 𝕄 :=
  bigSep Finset.univ fun s : Fin 16 => tileRes d X f c s

instance tileRes_storable (d : Dev nD) (X f : Flat F) (c : Fin 2) (s : Fin 16) :
    BI.Storable (upEmb : UEmb _ 𝕄) (tileRes d X f c s) := by unfold tileRes; infer_instance
instance coreRes_storable (d : Dev nD) (X f : Flat F) (c : Fin 2) :
    BI.Storable (upEmb : UEmb _ 𝕄) (coreRes d X f c) := by unfold coreRes; infer_instance

/-! ## The body's own spelling of a tile's thread, buffers and chunks -/

/-- The SparseCore and the tile that grid point `L` names, as the chip's, -/
abbrev cV (L : grid0.Coords) : Fin τ.nSC := (L 0).castLE hcore0
abbrev jV (L : grid0.Coords) : Fin τ.nSub := (L 1).castLE hsub0
/-- and as the grid's own coordinates. -/
abbrev cL (L : grid0.Coords) : Fin 2 := Fin.cast (show grid0.bound 0 = 2 from rfl) (L 0)
abbrev sL (L : grid0.Coords) : Fin 16 := Fin.cast (show grid0.bound 1 = 16 from rfl) (L 1)
abbrev thrV (d : Dev nD) (L : grid0.Coords) : Thread nD τ := V d (cV L) (jV L)

abbrev srcV : Memref sig .scVector .hbm S33841152 .f32 := Memref.whole main_v1_scv
abbrev dstV : Memref sig .scVector .hbm S33841152 .f32 := Memref.whole main_v2_scv
abbrev b0 : Memref sig .scVector .vmem S33048 .f32 := Memref.whole cc0_scratch0
abbrev b1 : Memref sig .scVector .vmem S33048 .f32 := Memref.whole cc0_scratch1
abbrev b2 : Memref sig .scVector .vmem S33048 .f32 := Memref.whole cc0_scratch2

/-- The chunk of 33,048 elements at the body's offset word `w`, of the source and of the destination, as the body slices them. -/
abbrev srcAt (L : grid0.Coords) (w : BitVec 32) (h : ∀ a, k0_off1 L w a + S33048.size a ≤ S33841152.size a) : Memref sig .scVector .hbm S33048 .f32 :=
  (srcV).slice (Rect.unit (s := S33841152) (k0_off1 L w) S33048.size h) (fun _ => rfl)
abbrev dstAt (L : grid0.Coords) (w : BitVec 32) (h : ∀ a, k0_off1 L w a + S33048.size a ≤ S33841152.size a) : Memref sig .scVector .hbm S33048 .f32 :=
  (dstV).slice (Rect.unit (s := S33841152) (k0_off1 L w) S33048.size h) (fun _ => rfl)

/-- A DMA semaphore of the tile, as a cell. -/
abbrev semCell (d : Dev nD) (L : grid0.Coords) (a : DmaSems sig S_) : GSem nD τ sig := (thrV d L, .dma a.sem)

/-! ## What the handshakes carry

`X d` is what the source array holds when the call is made, `f₀ d` what the destination holds then. The call takes
every chunk of both arrays and brings them back with the destination's chunks at `X d`. -/

def P (X f₀ : Dev nD → Flat F) : (K (F := F)).Pay (nD := nD) (Val := Elt F) (Name := ℕ) (U := UU) where
  st := fun q d c => match q with | 0 => coreRes d (X d) (f₀ d) (Fin.cast nCore_zero c)
  dn := fun q d c => match q with | 0 => coreRes d (X d) (X d) (Fin.cast nCore_zero c)
  go := fun q d c i => match q with | 0 => tileRes d (X d) (f₀ d) (Fin.cast nCore_zero c) (Fin.cast nSub_zero i)
  td := fun q d c i => match q with | 0 => tileRes d (X d) (X d) (Fin.cast nCore_zero c) (Fin.cast nSub_zero i)
  x := fun _ _ => iprop(emp)

instance P_storable (X f₀ : Dev nD → Flat F) : (P (F := F) X f₀).IsStorable where
  st q d c := match q with
    | 0 => (inferInstance : BI.Storable (upEmb : UEmb _ 𝕄) (coreRes d (X d) (f₀ d) (Fin.cast nCore_zero c)))
  dn q d c := match q with
    | 0 => (inferInstance : BI.Storable (upEmb : UEmb _ 𝕄) (coreRes d (X d) (X d) (Fin.cast nCore_zero c)))
  go q d c i := match q with
    | 0 => (inferInstance : BI.Storable (upEmb : UEmb _ 𝕄) (tileRes d (X d) (f₀ d) (Fin.cast nCore_zero c) (Fin.cast nSub_zero i)))
  td q d c i := match q with
    | 0 => (inferInstance : BI.Storable (upEmb : UEmb _ 𝕄) (tileRes d (X d) (X d) (Fin.cast nCore_zero c) (Fin.cast nSub_zero i)))

end Cert.Proof.KB

end
-- ==== Proof.LibWholePiece.lean ====
/-
  A view one of whose listed pieces is the whole view, written last: it reads back that piece, whatever the buffer held
  and whatever pieces were listed before it.
-/
import Idealize.ShloMosaic.Lib.Writes

namespace Cert.LibWholePiece

open Idealize.ShloMosaic

variable {sig : RefSig} {κ : Kind} {sp : Space} {s : Shape} {e : EltTy} {Val : EltTy → Type}

/-- After a piece covering the whole view, the view reads that piece's payload: earlier pieces and the prior contents
    are all overwritten. -/
theorem read_writes_whole_cons (v : View sig κ sp s e) (f : v.ty.Contents Val) (w : s.Idx → Val e) (L : List (View.Piece Val s e)) :
    v.read Val (v.writes Val f (⟨Rect.whole s, w⟩ :: L)) = w := by
  funext y
  have h := View.read_writes_cons_emb v f (Rect.whole s) w L y
  rwa [Rect.emb_whole_apply] at h

end Cert.LibWholePiece
-- ==== Proof.SplitKB.lean ====
/-
  The chunks in the two spellings: as pieces of the partition of the flat arrays, and as the rectangles the kernel's
  body slices at its offset words. A tile's `g`-th offset word is `33048·g` above its base `1057536·(2·s + c)`, so the
  rectangle it slices is chunk `(2·s + c)·32 + g`. A whole array is the separating conjunction of its 1,024 pieces.
-/
import proofs.«208078_g33122787787296_cont_8to1_b_435_17_alg».proof.Proof.SetupKB
import proofs.«208078_g33122787787296_cont_8to1_b_435_17_alg».proof.Proof.LibWholePiece

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The source's rectangle at tile `L`'s `g`-th offset word holds exactly chunk `(c, s, g)`'s elements; -/
theorem srcAt_set (L : grid0.Coords) (g : Fin 32) (w : BitVec 32) (hw : w = BitVec.ofNat 32 (33048 * g.val))
    (h : ∀ a, k0_off1 L w a + S33048.size a ≤ S33841152.size a) :
    (srcAt L w h).view.set = Chunks.piece (cL L, sL L, g) := by
  -- The offset word is `33048·g`, so the offset is `2115072·s + 1057536·c + 33048·g = 33048·((2·s + c)·32 + g)`:
  -- the rectangle is chunk `(2·s + c)·32 + g`, and a rectangle of a whole array holds the rectangle's own elements.
  subst hw
  have hR : Rect.unit (s := S33841152) (k0_off1 L (BitVec.ofNat 32 (33048 * g.val))) S33048.size h
      = Chunks.chunk (Chunks.tOf (cL L) (sL L) g) := by
    refine Chunks.unit_eq_chunk _ _ ?_ h
    rw [k0_off1_eq L g, Chunks.tOf_val]
    congr 1
    show 2115072 * (L 1).val + 1057536 * (L 0).val + 33048 * g.val = 33048 * ((2 * (L 1).val + (L 0).val) * 32 + g.val)
    omega
  show ((View.whole (main_v1_scv : Ref sig .scVector)).slice
      (Rect.unit (s := S33841152) (k0_off1 L (BitVec.ofNat 32 (33048 * g.val))) S33048.size h)).set = _
  rw [View.set_slice_whole, hR]

/-- and so does the destination's. -/
theorem dstAt_set (L : grid0.Coords) (g : Fin 32) (w : BitVec 32) (hw : w = BitVec.ofNat 32 (33048 * g.val))
    (h : ∀ a, k0_off1 L w a + S33048.size a ≤ S33841152.size a) :
    (dstAt L w h).view.set = Chunks.piece (cL L, sL L, g) := by
  -- As for the source: the same rectangle, of the other whole array.
  subst hw
  have hR : Rect.unit (s := S33841152) (k0_off1 L (BitVec.ofNat 32 (33048 * g.val))) S33048.size h
      = Chunks.chunk (Chunks.tOf (cL L) (sL L) g) := by
    refine Chunks.unit_eq_chunk _ _ ?_ h
    rw [k0_off1_eq L g, Chunks.tOf_val]
    congr 1
    show 2115072 * (L 1).val + 1057536 * (L 0).val + 33048 * g.val = 33048 * ((2 * (L 1).val + (L 0).val) * 32 + g.val)
    omega
  show ((View.whole (main_v2_scv : Ref sig .scVector)).slice
      (Rect.unit (s := S33841152) (k0_off1 L (BitVec.ofNat 32 (33048 * g.val))) S33048.size h)).set = _
  rw [View.set_slice_whole, hR]

/-- The source chunk read out and written whole through the destination's rectangle: on that rectangle the destination
    then agrees with the source, whatever it held. -/
theorem dst_lands (L : grid0.Coords) (w : BitVec 32) (h : ∀ a, k0_off1 L w a + S33048.size a ≤ S33841152.size a) (X f : Flat F) :
    ∀ j ∈ (dstAt L w h).view.set,
      ((dstAt L w h).view.writes (Elt F) f [⟨Rect.whole S33048, View.read (Elt F) (srcAt L w h).view X⟩]) j = X j := by
  -- An element of the rectangle is the place of some index `y` of the chunk. Read back through the destination's
  -- rectangle, the one whole-chunk write gives its payload at `y`, the source read at `y`; both rectangles place
  -- `y` at the same element.
  intro j hj
  obtain ⟨y, -, rfl⟩ := Finset.mem_map.mp hj
  have h1 : View.read (Elt F) (dstAt L w h).view
        ((dstAt L w h).view.writes (Elt F) f [⟨Rect.whole S33048, View.read (Elt F) (srcAt L w h).view X⟩]) y
      = View.read (Elt F) (srcAt L w h).view X y :=
    congrFun (Cert.LibWholePiece.read_writes_whole_cons (dstAt L w h).view f (View.read (Elt F) (srcAt L w h).view X) []) y
  rw [View.read_apply, View.read_apply, cast_eq, cast_eq] at h1
  exact h1

/-- A chunk of the source held in the body's spelling is the piece held in the launch's; -/
theorem pts_src (d : Dev nD) (L : grid0.Coords) (g : Fin 32) (w : BitVec 32) (hw : w = BitVec.ofNat 32 (33048 * g.val))
    (h : ∀ a, k0_off1 L w a + S33048.size a ≤ S33841152.size a) (X : Flat F) :
    ((srcAt L w h).view.loc (thrV d L) ↦[(srcAt L w h).view.set]{fullShare} X : sProp 𝕄)
      = (srcLoc d ↦[Chunks.piece (cL L, sL L, g)]{fullShare} X) := by
  rw [srcAt_set L g w hw h]

/-- the same for the destination. -/
theorem pts_dst (d : Dev nD) (L : grid0.Coords) (g : Fin 32) (w : BitVec 32) (hw : w = BitVec.ofNat 32 (33048 * g.val))
    (h : ∀ a, k0_off1 L w a + S33048.size a ≤ S33841152.size a) (f : Flat F) :
    ((dstAt L w h).view.loc (thrV d L) ↦[(dstAt L w h).view.set]{fullShare} f : sProp 𝕄)
      = (dstLoc d ↦[Chunks.piece (cL L, sL L, g)]{fullShare} f) := by
  rw [dstAt_set L g w hw h]

/-- A tile's 32 chunks, one by one. -/
theorem tileRes_unfold (d : Dev nD) (X f : Flat F) (c : Fin 2) (s : Fin 16) :
    (tileRes d X f c s : sProp 𝕄)
      = iprop(pieceRes d X f (c, s, 0)
          ∗ pieceRes d X f (c, s, 1)
          ∗ pieceRes d X f (c, s, 2)
          ∗ pieceRes d X f (c, s, 3)
          ∗ pieceRes d X f (c, s, 4)
          ∗ pieceRes d X f (c, s, 5)
          ∗ pieceRes d X f (c, s, 6)
          ∗ pieceRes d X f (c, s, 7)
          ∗ pieceRes d X f (c, s, 8)
          ∗ pieceRes d X f (c, s, 9)
          ∗ pieceRes d X f (c, s, 10)
          ∗ pieceRes d X f (c, s, 11)
          ∗ pieceRes d X f (c, s, 12)
          ∗ pieceRes d X f (c, s, 13)
          ∗ pieceRes d X f (c, s, 14)
          ∗ pieceRes d X f (c, s, 15)
          ∗ pieceRes d X f (c, s, 16)
          ∗ pieceRes d X f (c, s, 17)
          ∗ pieceRes d X f (c, s, 18)
          ∗ pieceRes d X f (c, s, 19)
          ∗ pieceRes d X f (c, s, 20)
          ∗ pieceRes d X f (c, s, 21)
          ∗ pieceRes d X f (c, s, 22)
          ∗ pieceRes d X f (c, s, 23)
          ∗ pieceRes d X f (c, s, 24)
          ∗ pieceRes d X f (c, s, 25)
          ∗ pieceRes d X f (c, s, 26)
          ∗ pieceRes d X f (c, s, 27)
          ∗ pieceRes d X f (c, s, 28)
          ∗ pieceRes d X f (c, s, 29)
          ∗ pieceRes d X f (c, s, 30)
          ∗ pieceRes d X f (c, s, 31)) := by
  -- The 32 indices listed in order, without repetition.
  unfold tileRes
  exact bigSep_univ_eq_bigSepL [0, 1, 2, 3, 4, 5, 6, 7, 8, 9, 10, 11, 12, 13, 14, 15, 16, 17, 18, 19, 20, 21, 22, 23, 24, 25, 26, 27, 28, 29, 30, 31] (by decide) (by decide) _

/-- Both arrays whole are the 2 × 16 tiles' chunks. -/
theorem arrays_split (d : Dev nD) (X f : Flat F) :
    (iprop((srcLoc d ↦{fullShare} X) ∗ (dstLoc d ↦{fullShare} f)) : sProp 𝕄)
      = bigSep Finset.univ fun c : Fin 2 => coreRes d X f c := by
  -- Each whole array is its 1,024 pieces (pairwise disjoint, covering it); pair the source's and the destination's
  -- piece of each triple, then group the triples by SparseCore, then by tile.
  have hs : (srcLoc d ↦{fullShare} X : sProp 𝕄)
      = bigSep Finset.univ fun a : Fin 2 × Fin 16 × Fin 32 => srcLoc d ↦[Chunks.piece a]{fullShare} X := by
    rw [← pointsTo_biUnion Finset.univ (ℓ := srcLoc d) Chunks.piece Chunks.pieces_disjoint, Chunks.pieces_cover]
  have hd : (dstLoc d ↦{fullShare} f : sProp 𝕄)
      = bigSep Finset.univ fun a : Fin 2 × Fin 16 × Fin 32 => dstLoc d ↦[Chunks.piece a]{fullShare} f := by
    rw [← pointsTo_biUnion Finset.univ (ℓ := dstLoc d) Chunks.piece Chunks.pieces_disjoint, Chunks.pieces_cover]
  rw [hs, hd, ← bigSep_sep', BI.bigSep_univ_prod]
  refine bigSep_congr fun c _ => ?_
  rw [BI.bigSep_univ_prod]
  rfl

end Cert.Proof.KB

end
-- ==== Proof.TileKB.lean ====
/-
  One tile's task. The tile holds its 32 chunks of the source and of the destination, its three scratch buffers and
  its six DMA semaphores at zero. Chunk `g` goes through scratch `g mod 3`: copied in on that slot's incoming
  semaphore, waited for, copied out to the same place of the destination on the slot's outgoing semaphore; the
  copy-out of chunk `g - 3` is waited for before chunk `g` is copied into the slot. So each semaphore carries one
  copy at a time, and no buffer is touched while a copy on it is outstanding. A copy-out's payload is the scratch
  read whole after the copy-in wrote it whole, that is, the source chunk; written through the destination's
  rectangle it makes the destination agree with the source there.
-/
import proofs.«208078_g33122787787296_cont_8to1_b_435_17_alg».proof.Proof.SplitKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid0.Coords)

abbrev m3 (d : Dev nD) (L : grid0.Coords) : GSem nD τ sig := semCell d L cc0_scratch3
abbrev m4 (d : Dev nD) (L : grid0.Coords) : GSem nD τ sig := semCell d L cc0_scratch4
abbrev m5 (d : Dev nD) (L : grid0.Coords) : GSem nD τ sig := semCell d L cc0_scratch5
abbrev m6 (d : Dev nD) (L : grid0.Coords) : GSem nD τ sig := semCell d L cc0_scratch6
abbrev m7 (d : Dev nD) (L : grid0.Coords) : GSem nD τ sig := semCell d L cc0_scratch7
abbrev m8 (d : Dev nD) (L : grid0.Coords) : GSem nD τ sig := semCell d L cc0_scratch8

omit [FloatOps F] in
/-- The tile's six DMA semaphores are among its scoped cells: they at zero, and the rest. -/
theorem ownSems0_V :
    (ownSems0 (thrV d L) : sProp 𝕄)
      = iprop(semVal (m3 d L) 0 ∗ semVal (m4 d L) 0 ∗ semVal (m5 d L) 0 ∗ semVal (m6 d L) 0 ∗ semVal (m7 d L) 0 ∗ semVal (m8 d L) 0
          ∗ bigSep (((((((ownCells (thrV d L)).erase (semCell d L cc0_scratch3)).erase (semCell d L cc0_scratch4)).erase (semCell d L cc0_scratch5)).erase (semCell d L cc0_scratch6)).erase (semCell d L cc0_scratch7)).erase (semCell d L cc0_scratch8)) fun g => semVal g 0) := by
  unfold SparseCore.Cfg.ownSems0
  rw [SparseCore.bigSep_erase' ((mem_ownCells (g := semCell d L cc0_scratch3)).mpr ⟨rfl, by show (SemLoc.dma cc0_scratch3.sem : SemLoc sig).isScoped .scVector = true; decide⟩),
    SparseCore.bigSep_erase' (Finset.mem_erase.mpr ⟨(fun e => absurd (congrArg Prod.snd e) (show (SemLoc.dma cc0_scratch4.sem : SemLoc sig) ≠ SemLoc.dma cc0_scratch3.sem by decide)), ((mem_ownCells (g := semCell d L cc0_scratch4)).mpr ⟨rfl, by show (SemLoc.dma cc0_scratch4.sem : SemLoc sig).isScoped .scVector = true; decide⟩)⟩),
    SparseCore.bigSep_erase' (Finset.mem_erase.mpr ⟨(fun e => absurd (congrArg Prod.snd e) (show (SemLoc.dma cc0_scratch5.sem : SemLoc sig) ≠ SemLoc.dma cc0_scratch4.sem by decide)), (Finset.mem_erase.mpr ⟨(fun e => absurd (congrArg Prod.snd e) (show (SemLoc.dma cc0_scratch5.sem : SemLoc sig) ≠ SemLoc.dma cc0_scratch3.sem by decide)), ((mem_ownCells (g := semCell d L cc0_scratch5)).mpr ⟨rfl, by show (SemLoc.dma cc0_scratch5.sem : SemLoc sig).isScoped .scVector = true; decide⟩)⟩)⟩),
    SparseCore.bigSep_erase' (Finset.mem_erase.mpr ⟨(fun e => absurd (congrArg Prod.snd e) (show (SemLoc.dma cc0_scratch6.sem : SemLoc sig) ≠ SemLoc.dma cc0_scratch5.sem by decide)), (Finset.mem_erase.mpr ⟨(fun e => absurd (congrArg Prod.snd e) (show (SemLoc.dma cc0_scratch6.sem : SemLoc sig) ≠ SemLoc.dma cc0_scratch4.sem by decide)), (Finset.mem_erase.mpr ⟨(fun e => absurd (congrArg Prod.snd e) (show (SemLoc.dma cc0_scratch6.sem : SemLoc sig) ≠ SemLoc.dma cc0_scratch3.sem by decide)), ((mem_ownCells (g := semCell d L cc0_scratch6)).mpr ⟨rfl, by show (SemLoc.dma cc0_scratch6.sem : SemLoc sig).isScoped .scVector = true; decide⟩)⟩)⟩)⟩),
    SparseCore.bigSep_erase' (Finset.mem_erase.mpr ⟨(fun e => absurd (congrArg Prod.snd e) (show (SemLoc.dma cc0_scratch7.sem : SemLoc sig) ≠ SemLoc.dma cc0_scratch6.sem by decide)), (Finset.mem_erase.mpr ⟨(fun e => absurd (congrArg Prod.snd e) (show (SemLoc.dma cc0_scratch7.sem : SemLoc sig) ≠ SemLoc.dma cc0_scratch5.sem by decide)), (Finset.mem_erase.mpr ⟨(fun e => absurd (congrArg Prod.snd e) (show (SemLoc.dma cc0_scratch7.sem : SemLoc sig) ≠ SemLoc.dma cc0_scratch4.sem by decide)), (Finset.mem_erase.mpr ⟨(fun e => absurd (congrArg Prod.snd e) (show (SemLoc.dma cc0_scratch7.sem : SemLoc sig) ≠ SemLoc.dma cc0_scratch3.sem by decide)), ((mem_ownCells (g := semCell d L cc0_scratch7)).mpr ⟨rfl, by show (SemLoc.dma cc0_scratch7.sem : SemLoc sig).isScoped .scVector = true; decide⟩)⟩)⟩)⟩)⟩),
    SparseCore.bigSep_erase' (Finset.mem_erase.mpr ⟨(fun e => absurd (congrArg Prod.snd e) (show (SemLoc.dma cc0_scratch8.sem : SemLoc sig) ≠ SemLoc.dma cc0_scratch7.sem by decide)), (Finset.mem_erase.mpr ⟨(fun e => absurd (congrArg Prod.snd e) (show (SemLoc.dma cc0_scratch8.sem : SemLoc sig) ≠ SemLoc.dma cc0_scratch6.sem by decide)), (Finset.mem_erase.mpr ⟨(fun e => absurd (congrArg Prod.snd e) (show (SemLoc.dma cc0_scratch8.sem : SemLoc sig) ≠ SemLoc.dma cc0_scratch5.sem by decide)), (Finset.mem_erase.mpr ⟨(fun e => absurd (congrArg Prod.snd e) (show (SemLoc.dma cc0_scratch8.sem : SemLoc sig) ≠ SemLoc.dma cc0_scratch4.sem by decide)), (Finset.mem_erase.mpr ⟨(fun e => absurd (congrArg Prod.snd e) (show (SemLoc.dma cc0_scratch8.sem : SemLoc sig) ≠ SemLoc.dma cc0_scratch3.sem by decide)), ((mem_ownCells (g := semCell d L cc0_scratch8)).mpr ⟨rfl, by show (SemLoc.dma cc0_scratch8.sem : SemLoc sig).isScoped .scVector = true; decide⟩)⟩)⟩)⟩)⟩)⟩)]

omit [FloatOps F] in
/-- The three scratch buffers are among the tile's own: they at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f)
          ∗ bigSep ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨(fun e => absurd (Proc.devRef_injective _ e) (show (cc0_scratch1 : Ref sig .scVector) ≠ cc0_scratch0 by decide)), (SparseCore.Cfg.mem_ownRefs_of_owner (p := Proc.scVector (cV L) (jV L)) (b := (Proc.scVector (cV L) (jV L)).devRef cc0_scratch1) rfl)⟩),
    SparseCore.bigSep_erase' (Finset.mem_erase.mpr ⟨(fun e => absurd (Proc.devRef_injective _ e) (show (cc0_scratch2 : Ref sig .scVector) ≠ cc0_scratch1 by decide)), (Finset.mem_erase.mpr ⟨(fun e => absurd (Proc.devRef_injective _ e) (show (cc0_scratch2 : Ref sig .scVector) ≠ cc0_scratch0 by decide)), (SparseCore.Cfg.mem_ownRefs_of_owner (p := Proc.scVector (cV L) (jV L)) (b := (Proc.scVector (cV L) (jV L)).devRef cc0_scratch2) rfl)⟩)⟩)]

omit [FloatOps F] in
theorem pts_b0 (f : S33048.Idx → Elt F .f32) :
    ((b0).view.loc (thrV d L) ↦[(b0).view.set]{fullShare} f : sProp 𝕄) = (thrV d L).loc cc0_scratch0 ↦{fullShare} f := by
  simp only [Memref.view_whole, View.set_whole]
omit [FloatOps F] in
theorem pts_b1 (f : S33048.Idx → Elt F .f32) :
    ((b1).view.loc (thrV d L) ↦[(b1).view.set]{fullShare} f : sProp 𝕄) = (thrV d L).loc cc0_scratch1 ↦{fullShare} f := by
  simp only [Memref.view_whole, View.set_whole]
omit [FloatOps F] in
theorem pts_b2 (f : S33048.Idx → Elt F .f32) :
    ((b2).view.loc (thrV d L) ↦[(b2).view.set]{fullShare} f : sProp 𝕄) = (thrV d L).loc cc0_scratch2 ↦{fullShare} f := by
  simp only [Memref.view_whole, View.set_whole]

omit [FloatOps F] in
/-- A destination chunk written whole with the source chunk's elements is the piece at the source's contents. -/
theorem dst_done (g : Fin 32) (w : BitVec 32) (hw : w = BitVec.ofNat 32 (33048 * g.val))
    (h : ∀ a, k0_off1 L w a + S33048.size a ≤ S33841152.size a) (X f : Flat F) (pay : S33048.Idx → Elt F .f32)
    (hpay : pay = View.read (Elt F) (srcAt L w h).view X) :
    ((dstAt L w h).view.loc (thrV d L) ↦[(dstAt L w h).view.set]{fullShare}
        ((dstAt L w h).view.writes (Elt F) f [⟨Rect.whole S33048, pay⟩]) : sProp 𝕄)
      = (dstLoc d ↦[Chunks.piece (cL L, sL L, g)]{fullShare} X) := by
  subst hpay
  rw [pointsTo_congr (dst_lands L w h X f), pts_dst d L g w hw h X]

omit [FloatOps F] in
/-- Waits recorded at the kernels' own index stay within what the launch allows. -/
theorem waits_step {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

set_option maxRecDepth 65536 in
set_option maxHeartbeats 4000000 in
/-- The task: from the tile's chunks, the source's at `X`, to the same chunks with the destination's at `X` too. -/
theorem tile_body (hF : (K (F := F)).Facts) (X f : Flat F) (O : CellTallies nD τ sig (HIx 1)) (W : Waits sig (HIx 1)) (hO : ∀ g, O g none = 0) :
    iprop(levAts (K (F := F)).L (K (F := F)).lev ∗ emp ∗ tileRes d X f (cL L) (sL L)
        ∗ scopedBufs (thrV d L) ∗ scopedSems0 (thrV d L) ∗ owes (thrV d L) O W)
      ⊢ wp frame (wpE (defs₀ (F := F)) 𝒱₀ (thrV d L) none) Set.univ
          (cc0_sc_copy L srcV (Memref.isWhole_whole _) dstV (Memref.isWhole_whole _) b0 (Memref.isWhole_whole _) b1 (Memref.isWhole_whole _) b2 (Memref.isWhole_whole _)
            cc0_scratch3 cc0_scratch4 cc0_scratch5 cc0_scratch6 cc0_scratch7 cc0_scratch8)
          fun _ => iprop(tileRes d X X (cL L) (sL L) ∗ scopedBufs (thrV d L) ∗ scopedSems0 (thrV d L)
            ∗ ∃ W', ⌜∀ p ∈ W', p ∈ W ∨ p.2 = none⌝ ∗ owes (thrV d L) O W') := by
  simp only [cc0_sc_copy_eq_skeleton]; unfold cc0_sc_copy_skel
  rw [(K (F := F)).scopedBufs_V hF d (cV L) (jV L), SparseCore.Cfg.scopedSems0_V (Val := Elt F) d (cV L) (jV L), ownSems0_V, ownBufs_V,
    tileRes_unfold d X f, tileRes_unfold d X X]
  unfold pieceRes
  iintro ⟨#Hlv, -, ⟨⟨Hs0, Hd0⟩, ⟨Hs1, Hd1⟩, ⟨Hs2, Hd2⟩, ⟨Hs3, Hd3⟩, ⟨Hs4, Hd4⟩, ⟨Hs5, Hd5⟩, ⟨Hs6, Hd6⟩, ⟨Hs7, Hd7⟩, ⟨Hs8, Hd8⟩, ⟨Hs9, Hd9⟩, ⟨Hs10, Hd10⟩, ⟨Hs11, Hd11⟩, ⟨Hs12, Hd12⟩, ⟨Hs13, Hd13⟩, ⟨Hs14, Hd14⟩, ⟨Hs15, Hd15⟩, ⟨Hs16, Hd16⟩, ⟨Hs17, Hd17⟩, ⟨Hs18, Hd18⟩, ⟨Hs19, Hd19⟩, ⟨Hs20, Hd20⟩, ⟨Hs21, Hd21⟩, ⟨Hs22, Hd22⟩, ⟨Hs23, Hd23⟩, ⟨Hs24, Hd24⟩, ⟨Hs25, Hd25⟩, ⟨Hs26, Hd26⟩, ⟨Hs27, Hd27⟩, ⟨Hs28, Hd28⟩, ⟨Hs29, Hd29⟩, ⟨Hs30, Hd30⟩, ⟨Hs31, Hd31⟩⟩, ⟨⟨%f0, Hb0⟩, ⟨%f1, Hb1⟩, ⟨%f2, Hb2⟩, Hbufs⟩, ⟨Hm3, Hm4, Hm5, Hm6, Hm7, Hm8, Hsems⟩, HO⟩
  ihave Hmw := ((K (F := F)).mayWaits_none (thr := thrV d L) hO) $$ Hlv
  ihave Hs0 := (Entails.of_eq (pts_src (F := F) d L 0 0#32 rfl (k0_off1_inb L 0) X).symm) $$ Hs0
  ihave Hd0 := (Entails.of_eq (pts_dst (F := F) d L 0 0#32 rfl (k0_off1_inb L 0) f).symm) $$ Hd0
  ihave Hs1 := (Entails.of_eq (pts_src (F := F) d L 1 33048#32 rfl (k0_off1_inb L 1) X).symm) $$ Hs1
  ihave Hd1 := (Entails.of_eq (pts_dst (F := F) d L 1 33048#32 rfl (k0_off1_inb L 1) f).symm) $$ Hd1
  ihave Hs2 := (Entails.of_eq (pts_src (F := F) d L 2 66096#32 rfl (k0_off1_inb L 2) X).symm) $$ Hs2
  ihave Hd2 := (Entails.of_eq (pts_dst (F := F) d L 2 66096#32 rfl (k0_off1_inb L 2) f).symm) $$ Hd2
  ihave Hs3 := (Entails.of_eq (pts_src (F := F) d L 3 99144#32 rfl (k0_off1_inb L 3) X).symm) $$ Hs3
  ihave Hd3 := (Entails.of_eq (pts_dst (F := F) d L 3 99144#32 rfl (k0_off1_inb L 3) f).symm) $$ Hd3
  ihave Hs4 := (Entails.of_eq (pts_src (F := F) d L 4 132192#32 rfl (k0_off1_inb L 4) X).symm) $$ Hs4
  ihave Hd4 := (Entails.of_eq (pts_dst (F := F) d L 4 132192#32 rfl (k0_off1_inb L 4) f).symm) $$ Hd4
  ihave Hs5 := (Entails.of_eq (pts_src (F := F) d L 5 165240#32 rfl (k0_off1_inb L 5) X).symm) $$ Hs5
  ihave Hd5 := (Entails.of_eq (pts_dst (F := F) d L 5 165240#32 rfl (k0_off1_inb L 5) f).symm) $$ Hd5
  ihave Hs6 := (Entails.of_eq (pts_src (F := F) d L 6 198288#32 rfl (k0_off1_inb L 6) X).symm) $$ Hs6
  ihave Hd6 := (Entails.of_eq (pts_dst (F := F) d L 6 198288#32 rfl (k0_off1_inb L 6) f).symm) $$ Hd6
  ihave Hs7 := (Entails.of_eq (pts_src (F := F) d L 7 231336#32 rfl (k0_off1_inb L 7) X).symm) $$ Hs7
  ihave Hd7 := (Entails.of_eq (pts_dst (F := F) d L 7 231336#32 rfl (k0_off1_inb L 7) f).symm) $$ Hd7
  ihave Hs8 := (Entails.of_eq (pts_src (F := F) d L 8 264384#32 rfl (k0_off1_inb L 8) X).symm) $$ Hs8
  ihave Hd8 := (Entails.of_eq (pts_dst (F := F) d L 8 264384#32 rfl (k0_off1_inb L 8) f).symm) $$ Hd8
  ihave Hs9 := (Entails.of_eq (pts_src (F := F) d L 9 297432#32 rfl (k0_off1_inb L 9) X).symm) $$ Hs9
  ihave Hd9 := (Entails.of_eq (pts_dst (F := F) d L 9 297432#32 rfl (k0_off1_inb L 9) f).symm) $$ Hd9
  ihave Hs10 := (Entails.of_eq (pts_src (F := F) d L 10 330480#32 rfl (k0_off1_inb L 10) X).symm) $$ Hs10
  ihave Hd10 := (Entails.of_eq (pts_dst (F := F) d L 10 330480#32 rfl (k0_off1_inb L 10) f).symm) $$ Hd10
  ihave Hs11 := (Entails.of_eq (pts_src (F := F) d L 11 363528#32 rfl (k0_off1_inb L 11) X).symm) $$ Hs11
  ihave Hd11 := (Entails.of_eq (pts_dst (F := F) d L 11 363528#32 rfl (k0_off1_inb L 11) f).symm) $$ Hd11
  ihave Hs12 := (Entails.of_eq (pts_src (F := F) d L 12 396576#32 rfl (k0_off1_inb L 12) X).symm) $$ Hs12
  ihave Hd12 := (Entails.of_eq (pts_dst (F := F) d L 12 396576#32 rfl (k0_off1_inb L 12) f).symm) $$ Hd12
  ihave Hs13 := (Entails.of_eq (pts_src (F := F) d L 13 429624#32 rfl (k0_off1_inb L 13) X).symm) $$ Hs13
  ihave Hd13 := (Entails.of_eq (pts_dst (F := F) d L 13 429624#32 rfl (k0_off1_inb L 13) f).symm) $$ Hd13
  ihave Hs14 := (Entails.of_eq (pts_src (F := F) d L 14 462672#32 rfl (k0_off1_inb L 14) X).symm) $$ Hs14
  ihave Hd14 := (Entails.of_eq (pts_dst (F := F) d L 14 462672#32 rfl (k0_off1_inb L 14) f).symm) $$ Hd14
  ihave Hs15 := (Entails.of_eq (pts_src (F := F) d L 15 495720#32 rfl (k0_off1_inb L 15) X).symm) $$ Hs15
  ihave Hd15 := (Entails.of_eq (pts_dst (F := F) d L 15 495720#32 rfl (k0_off1_inb L 15) f).symm) $$ Hd15
  ihave Hs16 := (Entails.of_eq (pts_src (F := F) d L 16 528768#32 rfl (k0_off1_inb L 16) X).symm) $$ Hs16
  ihave Hd16 := (Entails.of_eq (pts_dst (F := F) d L 16 528768#32 rfl (k0_off1_inb L 16) f).symm) $$ Hd16
  ihave Hs17 := (Entails.of_eq (pts_src (F := F) d L 17 561816#32 rfl (k0_off1_inb L 17) X).symm) $$ Hs17
  ihave Hd17 := (Entails.of_eq (pts_dst (F := F) d L 17 561816#32 rfl (k0_off1_inb L 17) f).symm) $$ Hd17
  ihave Hs18 := (Entails.of_eq (pts_src (F := F) d L 18 594864#32 rfl (k0_off1_inb L 18) X).symm) $$ Hs18
  ihave Hd18 := (Entails.of_eq (pts_dst (F := F) d L 18 594864#32 rfl (k0_off1_inb L 18) f).symm) $$ Hd18
  ihave Hs19 := (Entails.of_eq (pts_src (F := F) d L 19 627912#32 rfl (k0_off1_inb L 19) X).symm) $$ Hs19
  ihave Hd19 := (Entails.of_eq (pts_dst (F := F) d L 19 627912#32 rfl (k0_off1_inb L 19) f).symm) $$ Hd19
  ihave Hs20 := (Entails.of_eq (pts_src (F := F) d L 20 660960#32 rfl (k0_off1_inb L 20) X).symm) $$ Hs20
  ihave Hd20 := (Entails.of_eq (pts_dst (F := F) d L 20 660960#32 rfl (k0_off1_inb L 20) f).symm) $$ Hd20
  ihave Hs21 := (Entails.of_eq (pts_src (F := F) d L 21 694008#32 rfl (k0_off1_inb L 21) X).symm) $$ Hs21
  ihave Hd21 := (Entails.of_eq (pts_dst (F := F) d L 21 694008#32 rfl (k0_off1_inb L 21) f).symm) $$ Hd21
  ihave Hs22 := (Entails.of_eq (pts_src (F := F) d L 22 727056#32 rfl (k0_off1_inb L 22) X).symm) $$ Hs22
  ihave Hd22 := (Entails.of_eq (pts_dst (F := F) d L 22 727056#32 rfl (k0_off1_inb L 22) f).symm) $$ Hd22
  ihave Hs23 := (Entails.of_eq (pts_src (F := F) d L 23 760104#32 rfl (k0_off1_inb L 23) X).symm) $$ Hs23
  ihave Hd23 := (Entails.of_eq (pts_dst (F := F) d L 23 760104#32 rfl (k0_off1_inb L 23) f).symm) $$ Hd23
  ihave Hs24 := (Entails.of_eq (pts_src (F := F) d L 24 793152#32 rfl (k0_off1_inb L 24) X).symm) $$ Hs24
  ihave Hd24 := (Entails.of_eq (pts_dst (F := F) d L 24 793152#32 rfl (k0_off1_inb L 24) f).symm) $$ Hd24
  ihave Hs25 := (Entails.of_eq (pts_src (F := F) d L 25 826200#32 rfl (k0_off1_inb L 25) X).symm) $$ Hs25
  ihave Hd25 := (Entails.of_eq (pts_dst (F := F) d L 25 826200#32 rfl (k0_off1_inb L 25) f).symm) $$ Hd25
  ihave Hs26 := (Entails.of_eq (pts_src (F := F) d L 26 859248#32 rfl (k0_off1_inb L 26) X).symm) $$ Hs26
  ihave Hd26 := (Entails.of_eq (pts_dst (F := F) d L 26 859248#32 rfl (k0_off1_inb L 26) f).symm) $$ Hd26
  ihave Hs27 := (Entails.of_eq (pts_src (F := F) d L 27 892296#32 rfl (k0_off1_inb L 27) X).symm) $$ Hs27
  ihave Hd27 := (Entails.of_eq (pts_dst (F := F) d L 27 892296#32 rfl (k0_off1_inb L 27) f).symm) $$ Hd27
  ihave Hs28 := (Entails.of_eq (pts_src (F := F) d L 28 925344#32 rfl (k0_off1_inb L 28) X).symm) $$ Hs28
  ihave Hd28 := (Entails.of_eq (pts_dst (F := F) d L 28 925344#32 rfl (k0_off1_inb L 28) f).symm) $$ Hd28
  ihave Hs29 := (Entails.of_eq (pts_src (F := F) d L 29 958392#32 rfl (k0_off1_inb L 29) X).symm) $$ Hs29
  ihave Hd29 := (Entails.of_eq (pts_dst (F := F) d L 29 958392#32 rfl (k0_off1_inb L 29) f).symm) $$ Hd29
  ihave Hs30 := (Entails.of_eq (pts_src (F := F) d L 30 991440#32 rfl (k0_off1_inb L 30) X).symm) $$ Hs30
  ihave Hd30 := (Entails.of_eq (pts_dst (F := F) d L 30 991440#32 rfl (k0_off1_inb L 30) f).symm) $$ Hd30
  ihave Hs31 := (Entails.of_eq (pts_src (F := F) d L 31 1024488#32 rfl (k0_off1_inb L 31) X).symm) $$ Hs31
  ihave Hd31 := (Entails.of_eq (pts_dst (F := F) d L 31 1024488#32 rfl (k0_off1_inb L 31) f).symm) $$ Hd31
  ihave Hb0 := (Entails.of_eq (pts_b0 (F := F) d L f0).symm) $$ Hb0
  ihave Hb1 := (Entails.of_eq (pts_b1 (F := F) d L f1).symm) $$ Hb1
  ihave Hb2 := (Entails.of_eq (pts_b2 (F := F) d L f2).symm) $$ Hb2
  sl_exec
  sl_step
  isplitl [Hs0 Hd0 Hs1 Hd1 Hs2 Hd2 Hs3 Hd3 Hs4 Hd4 Hs5 Hd5 Hs6 Hd6 Hs7 Hd7 Hs8 Hd8 Hs9 Hd9 Hs10 Hd10 Hs11 Hd11 Hs12 Hd12 Hs13 Hd13 Hs14 Hd14 Hs15 Hd15 Hs16 Hd16 Hs17 Hd17 Hs18 Hd18 Hs19 Hd19 Hs20 Hd20 Hs21 Hd21 Hs22 Hd22 Hs23 Hd23 Hs24 Hd24 Hs25 Hd25 Hs26 Hd26 Hs27 Hd27 Hs28 Hd28 Hs29 Hd29 Hs30 Hd30 Hs31 Hd31]
  · skip
    isplitl [Hs0 Hd0]
    · isplitl [Hs0]
      · iapply (Entails.of_eq (pts_src (F := F) d L 0 0#32 rfl (k0_off1_inb L 0) X)); iexact Hs0
      · iapply (Entails.of_eq (dst_done (F := F) d L 0 0#32 rfl (k0_off1_inb L 0) X f (tile_body.sl.dma0_3 d L X f0) (by
          unfold tile_body.sl.dma0_3 tile_body.sl.dma0
          exact Cert.LibWholePiece.read_writes_whole_cons _ _ _ _))); iexact Hd0
    isplitl [Hs1 Hd1]
    · isplitl [Hs1]
      · iapply (Entails.of_eq (pts_src (F := F) d L 1 33048#32 rfl (k0_off1_inb L 1) X)); iexact Hs1
      · iapply (Entails.of_eq (dst_done (F := F) d L 1 33048#32 rfl (k0_off1_inb L 1) X f (tile_body.sl.dma0_5 d L X f1) (by
          unfold tile_body.sl.dma0_5 tile_body.sl.dma0_1
          exact Cert.LibWholePiece.read_writes_whole_cons _ _ _ _))); iexact Hd1
    isplitl [Hs2 Hd2]
    · isplitl [Hs2]
      · iapply (Entails.of_eq (pts_src (F := F) d L 2 66096#32 rfl (k0_off1_inb L 2) X)); iexact Hs2
      · iapply (Entails.of_eq (dst_done (F := F) d L 2 66096#32 rfl (k0_off1_inb L 2) X f (tile_body.sl.dma0_7 d L X f2) (by
          unfold tile_body.sl.dma0_7 tile_body.sl.dma0_2
          exact Cert.LibWholePiece.read_writes_whole_cons _ _ _ _))); iexact Hd2
    isplitl [Hs3 Hd3]
    · isplitl [Hs3]
      · iapply (Entails.of_eq (pts_src (F := F) d L 3 99144#32 rfl (k0_off1_inb L 3) X)); iexact Hs3
      · iapply (Entails.of_eq (dst_done (F := F) d L 3 99144#32 rfl (k0_off1_inb L 3) X f (tile_body.sl.dma0_9 d L X f0) (by
          unfold tile_body.sl.dma0_9 tile_body.sl.dma0_4
          exact Cert.LibWholePiece.read_writes_whole_cons _ _ _ _))); iexact Hd3
    isplitl [Hs4 Hd4]
    · isplitl [Hs4]
      · iapply (Entails.of_eq (pts_src (F := F) d L 4 132192#32 rfl (k0_off1_inb L 4) X)); iexact Hs4
      · iapply (Entails.of_eq (dst_done (F := F) d L 4 132192#32 rfl (k0_off1_inb L 4) X f (tile_body.sl.dma0_11 d L X f1) (by
          unfold tile_body.sl.dma0_11 tile_body.sl.dma0_6
          exact Cert.LibWholePiece.read_writes_whole_cons _ _ _ _))); iexact Hd4
    isplitl [Hs5 Hd5]
    · isplitl [Hs5]
      · iapply (Entails.of_eq (pts_src (F := F) d L 5 165240#32 rfl (k0_off1_inb L 5) X)); iexact Hs5
      · iapply (Entails.of_eq (dst_done (F := F) d L 5 165240#32 rfl (k0_off1_inb L 5) X f (tile_body.sl.dma0_13 d L X f2) (by
          unfold tile_body.sl.dma0_13 tile_body.sl.dma0_8
          exact Cert.LibWholePiece.read_writes_whole_cons _ _ _ _))); iexact Hd5
    isplitl [Hs6 Hd6]
    · isplitl [Hs6]
      · iapply (Entails.of_eq (pts_src (F := F) d L 6 198288#32 rfl (k0_off1_inb L 6) X)); iexact Hs6
      · iapply (Entails.of_eq (dst_done (F := F) d L 6 198288#32 rfl (k0_off1_inb L 6) X f (tile_body.sl.dma0_15 d L X f0) (by
          unfold tile_body.sl.dma0_15 tile_body.sl.dma0_10
          exact Cert.LibWholePiece.read_writes_whole_cons _ _ _ _))); iexact Hd6
    isplitl [Hs7 Hd7]
    · isplitl [Hs7]
      · iapply (Entails.of_eq (pts_src (F := F) d L 7 231336#32 rfl (k0_off1_inb L 7) X)); iexact Hs7
      · iapply (Entails.of_eq (dst_done (F := F) d L 7 231336#32 rfl (k0_off1_inb L 7) X f (tile_body.sl.dma0_17 d L X f1) (by
          unfold tile_body.sl.dma0_17 tile_body.sl.dma0_12
          exact Cert.LibWholePiece.read_writes_whole_cons _ _ _ _))); iexact Hd7
    isplitl [Hs8 Hd8]
    · isplitl [Hs8]
      · iapply (Entails.of_eq (pts_src (F := F) d L 8 264384#32 rfl (k0_off1_inb L 8) X)); iexact Hs8
      · iapply (Entails.of_eq (dst_done (F := F) d L 8 264384#32 rfl (k0_off1_inb L 8) X f (tile_body.sl.dma0_19 d L X f2) (by
          unfold tile_body.sl.dma0_19 tile_body.sl.dma0_14
          exact Cert.LibWholePiece.read_writes_whole_cons _ _ _ _))); iexact Hd8
    isplitl [Hs9 Hd9]
    · isplitl [Hs9]
      · iapply (Entails.of_eq (pts_src (F := F) d L 9 297432#32 rfl (k0_off1_inb L 9) X)); iexact Hs9
      · iapply (Entails.of_eq (dst_done (F := F) d L 9 297432#32 rfl (k0_off1_inb L 9) X f (tile_body.sl.dma0_21 d L X f0) (by
          unfold tile_body.sl.dma0_21 tile_body.sl.dma0_16
          exact Cert.LibWholePiece.read_writes_whole_cons _ _ _ _))); iexact Hd9
    isplitl [Hs10 Hd10]
    · isplitl [Hs10]
      · iapply (Entails.of_eq (pts_src (F := F) d L 10 330480#32 rfl (k0_off1_inb L 10) X)); iexact Hs10
      · iapply (Entails.of_eq (dst_done (F := F) d L 10 330480#32 rfl (k0_off1_inb L 10) X f (tile_body.sl.dma0_23 d L X f1) (by
          unfold tile_body.sl.dma0_23 tile_body.sl.dma0_18
          exact Cert.LibWholePiece.read_writes_whole_cons _ _ _ _))); iexact Hd10
    isplitl [Hs11 Hd11]
    · isplitl [Hs11]
      · iapply (Entails.of_eq (pts_src (F := F) d L 11 363528#32 rfl (k0_off1_inb L 11) X)); iexact Hs11
      · iapply (Entails.of_eq (dst_done (F := F) d L 11 363528#32 rfl (k0_off1_inb L 11) X f (tile_body.sl.dma0_25 d L X f2) (by
          unfold tile_body.sl.dma0_25 tile_body.sl.dma0_20
          exact Cert.LibWholePiece.read_writes_whole_cons _ _ _ _))); iexact Hd11
    isplitl [Hs12 Hd12]
    · isplitl [Hs12]
      · iapply (Entails.of_eq (pts_src (F := F) d L 12 396576#32 rfl (k0_off1_inb L 12) X)); iexact Hs12
      · iapply (Entails.of_eq (dst_done (F := F) d L 12 396576#32 rfl (k0_off1_inb L 12) X f (tile_body.sl.dma0_27 d L X f0) (by
          unfold tile_body.sl.dma0_27 tile_body.sl.dma0_22
          exact Cert.LibWholePiece.read_writes_whole_cons _ _ _ _))); iexact Hd12
    isplitl [Hs13 Hd13]
    · isplitl [Hs13]
      · iapply (Entails.of_eq (pts_src (F := F) d L 13 429624#32 rfl (k0_off1_inb L 13) X)); iexact Hs13
      · iapply (Entails.of_eq (dst_done (F := F) d L 13 429624#32 rfl (k0_off1_inb L 13) X f (tile_body.sl.dma0_29 d L X f1) (by
          unfold tile_body.sl.dma0_29 tile_body.sl.dma0_24
          exact Cert.LibWholePiece.read_writes_whole_cons _ _ _ _))); iexact Hd13
    isplitl [Hs14 Hd14]
    · isplitl [Hs14]
      · iapply (Entails.of_eq (pts_src (F := F) d L 14 462672#32 rfl (k0_off1_inb L 14) X)); iexact Hs14
      · iapply (Entails.of_eq (dst_done (F := F) d L 14 462672#32 rfl (k0_off1_inb L 14) X f (tile_body.sl.dma0_31 d L X f2) (by
          unfold tile_body.sl.dma0_31 tile_body.sl.dma0_26
          exact Cert.LibWholePiece.read_writes_whole_cons _ _ _ _))); iexact Hd14
    isplitl [Hs15 Hd15]
    · isplitl [Hs15]
      · iapply (Entails.of_eq (pts_src (F := F) d L 15 495720#32 rfl (k0_off1_inb L 15) X)); iexact Hs15
      · iapply (Entails.of_eq (dst_done (F := F) d L 15 495720#32 rfl (k0_off1_inb L 15) X f (tile_body.sl.dma0_33 d L X f0) (by
          unfold tile_body.sl.dma0_33 tile_body.sl.dma0_28
          exact Cert.LibWholePiece.read_writes_whole_cons _ _ _ _))); iexact Hd15
    isplitl [Hs16 Hd16]
    · isplitl [Hs16]
      · iapply (Entails.of_eq (pts_src (F := F) d L 16 528768#32 rfl (k0_off1_inb L 16) X)); iexact Hs16
      · iapply (Entails.of_eq (dst_done (F := F) d L 16 528768#32 rfl (k0_off1_inb L 16) X f (tile_body.sl.dma0_35 d L X f1) (by
          unfold tile_body.sl.dma0_35 tile_body.sl.dma0_30
          exact Cert.LibWholePiece.read_writes_whole_cons _ _ _ _))); iexact Hd16
    isplitl [Hs17 Hd17]
    · isplitl [Hs17]
      · iapply (Entails.of_eq (pts_src (F := F) d L 17 561816#32 rfl (k0_off1_inb L 17) X)); iexact Hs17
      · iapply (Entails.of_eq (dst_done (F := F) d L 17 561816#32 rfl (k0_off1_inb L 17) X f (tile_body.sl.dma0_37 d L X f2) (by
          unfold tile_body.sl.dma0_37 tile_body.sl.dma0_32
          exact Cert.LibWholePiece.read_writes_whole_cons _ _ _ _))); iexact Hd17
    isplitl [Hs18 Hd18]
    · isplitl [Hs18]
      · iapply (Entails.of_eq (pts_src (F := F) d L 18 594864#32 rfl (k0_off1_inb L 18) X)); iexact Hs18
      · iapply (Entails.of_eq (dst_done (F := F) d L 18 594864#32 rfl (k0_off1_inb L 18) X f (tile_body.sl.dma0_39 d L X f0) (by
          unfold tile_body.sl.dma0_39 tile_body.sl.dma0_34
          exact Cert.LibWholePiece.read_writes_whole_cons _ _ _ _))); iexact Hd18
    isplitl [Hs19 Hd19]
    · isplitl [Hs19]
      · iapply (Entails.of_eq (pts_src (F := F) d L 19 627912#32 rfl (k0_off1_inb L 19) X)); iexact Hs19
      · iapply (Entails.of_eq (dst_done (F := F) d L 19 627912#32 rfl (k0_off1_inb L 19) X f (tile_body.sl.dma0_41 d L X f1) (by
          unfold tile_body.sl.dma0_41 tile_body.sl.dma0_36
          exact Cert.LibWholePiece.read_writes_whole_cons _ _ _ _))); iexact Hd19
    isplitl [Hs20 Hd20]
    · isplitl [Hs20]
      · iapply (Entails.of_eq (pts_src (F := F) d L 20 660960#32 rfl (k0_off1_inb L 20) X)); iexact Hs20
      · iapply (Entails.of_eq (dst_done (F := F) d L 20 660960#32 rfl (k0_off1_inb L 20) X f (tile_body.sl.dma0_43 d L X f2) (by
          unfold tile_body.sl.dma0_43 tile_body.sl.dma0_38
          exact Cert.LibWholePiece.read_writes_whole_cons _ _ _ _))); iexact Hd20
    isplitl [Hs21 Hd21]
    · isplitl [Hs21]
      · iapply (Entails.of_eq (pts_src (F := F) d L 21 694008#32 rfl (k0_off1_inb L 21) X)); iexact Hs21
      · iapply (Entails.of_eq (dst_done (F := F) d L 21 694008#32 rfl (k0_off1_inb L 21) X f (tile_body.sl.dma0_45 d L X f0) (by
          unfold tile_body.sl.dma0_45 tile_body.sl.dma0_40
          exact Cert.LibWholePiece.read_writes_whole_cons _ _ _ _))); iexact Hd21
    isplitl [Hs22 Hd22]
    · isplitl [Hs22]
      · iapply (Entails.of_eq (pts_src (F := F) d L 22 727056#32 rfl (k0_off1_inb L 22) X)); iexact Hs22
      · iapply (Entails.of_eq (dst_done (F := F) d L 22 727056#32 rfl (k0_off1_inb L 22) X f (tile_body.sl.dma0_47 d L X f1) (by
          unfold tile_body.sl.dma0_47 tile_body.sl.dma0_42
          exact Cert.LibWholePiece.read_writes_whole_cons _ _ _ _))); iexact Hd22
    isplitl [Hs23 Hd23]
    · isplitl [Hs23]
      · iapply (Entails.of_eq (pts_src (F := F) d L 23 760104#32 rfl (k0_off1_inb L 23) X)); iexact Hs23
      · iapply (Entails.of_eq (dst_done (F := F) d L 23 760104#32 rfl (k0_off1_inb L 23) X f (tile_body.sl.dma0_49 d L X f2) (by
          unfold tile_body.sl.dma0_49 tile_body.sl.dma0_44
          exact Cert.LibWholePiece.read_writes_whole_cons _ _ _ _))); iexact Hd23
    isplitl [Hs24 Hd24]
    · isplitl [Hs24]
      · iapply (Entails.of_eq (pts_src (F := F) d L 24 793152#32 rfl (k0_off1_inb L 24) X)); iexact Hs24
      · iapply (Entails.of_eq (dst_done (F := F) d L 24 793152#32 rfl (k0_off1_inb L 24) X f (tile_body.sl.dma0_51 d L X f0) (by
          unfold tile_body.sl.dma0_51 tile_body.sl.dma0_46
          exact Cert.LibWholePiece.read_writes_whole_cons _ _ _ _))); iexact Hd24
    isplitl [Hs25 Hd25]
    · isplitl [Hs25]
      · iapply (Entails.of_eq (pts_src (F := F) d L 25 826200#32 rfl (k0_off1_inb L 25) X)); iexact Hs25
      · iapply (Entails.of_eq (dst_done (F := F) d L 25 826200#32 rfl (k0_off1_inb L 25) X f (tile_body.sl.dma0_53 d L X f1) (by
          unfold tile_body.sl.dma0_53 tile_body.sl.dma0_48
          exact Cert.LibWholePiece.read_writes_whole_cons _ _ _ _))); iexact Hd25
    isplitl [Hs26 Hd26]
    · isplitl [Hs26]
      · iapply (Entails.of_eq (pts_src (F := F) d L 26 859248#32 rfl (k0_off1_inb L 26) X)); iexact Hs26
      · iapply (Entails.of_eq (dst_done (F := F) d L 26 859248#32 rfl (k0_off1_inb L 26) X f (tile_body.sl.dma0_55 d L X f2) (by
          unfold tile_body.sl.dma0_55 tile_body.sl.dma0_50
          exact Cert.LibWholePiece.read_writes_whole_cons _ _ _ _))); iexact Hd26
    isplitl [Hs27 Hd27]
    · isplitl [Hs27]
      · iapply (Entails.of_eq (pts_src (F := F) d L 27 892296#32 rfl (k0_off1_inb L 27) X)); iexact Hs27
      · iapply (Entails.of_eq (dst_done (F := F) d L 27 892296#32 rfl (k0_off1_inb L 27) X f (tile_body.sl.dma0_57 d L X f0) (by
          unfold tile_body.sl.dma0_57 tile_body.sl.dma0_52
          exact Cert.LibWholePiece.read_writes_whole_cons _ _ _ _))); iexact Hd27
    isplitl [Hs28 Hd28]
    · isplitl [Hs28]
      · iapply (Entails.of_eq (pts_src (F := F) d L 28 925344#32 rfl (k0_off1_inb L 28) X)); iexact Hs28
      · iapply (Entails.of_eq (dst_done (F := F) d L 28 925344#32 rfl (k0_off1_inb L 28) X f (tile_body.sl.dma0_59 d L X f1) (by
          unfold tile_body.sl.dma0_59 tile_body.sl.dma0_54
          exact Cert.LibWholePiece.read_writes_whole_cons _ _ _ _))); iexact Hd28
    isplitl [Hs29 Hd29]
    · isplitl [Hs29]
      · iapply (Entails.of_eq (pts_src (F := F) d L 29 958392#32 rfl (k0_off1_inb L 29) X)); iexact Hs29
      · iapply (Entails.of_eq (dst_done (F := F) d L 29 958392#32 rfl (k0_off1_inb L 29) X f (tile_body.sl.dma0_61 d L X f2) (by
          unfold tile_body.sl.dma0_61 tile_body.sl.dma0_56
          exact Cert.LibWholePiece.read_writes_whole_cons _ _ _ _))); iexact Hd29
    isplitl [Hs30 Hd30]
    · isplitl [Hs30]
      · iapply (Entails.of_eq (pts_src (F := F) d L 30 991440#32 rfl (k0_off1_inb L 30) X)); iexact Hs30
      · iapply (Entails.of_eq (dst_done (F := F) d L 30 991440#32 rfl (k0_off1_inb L 30) X f (tile_body.sl.dma0_62 d L X f0) (by
          unfold tile_body.sl.dma0_62 tile_body.sl.dma0_58
          exact Cert.LibWholePiece.read_writes_whole_cons _ _ _ _))); iexact Hd30
    isplitl [Hs31]
    · iapply (Entails.of_eq (pts_src (F := F) d L 31 1024488#32 rfl (k0_off1_inb L 31) X)); iexact Hs31
    · iapply (Entails.of_eq (dst_done (F := F) d L 31 1024488#32 rfl (k0_off1_inb L 31) X f (tile_body.sl.dma0_63 d L X f1) (by
        unfold tile_body.sl.dma0_63 tile_body.sl.dma0_60
        exact Cert.LibWholePiece.read_writes_whole_cons _ _ _ _))); iexact Hd31
  isplitl [Hb0 Hb1 Hb2 Hbufs]
  · isplitl [Hb0]; · iexists _; iapply (Entails.of_eq (pts_b0 (F := F) d L _)); iexact Hb0
    isplitl [Hb1]; · iexists _; iapply (Entails.of_eq (pts_b1 (F := F) d L _)); iexact Hb1
    isplitl [Hb2]; · iexists _; iapply (Entails.of_eq (pts_b2 (F := F) d L _)); iexact Hb2
    iexact Hbufs
  isplitl [Hm3 Hm4 Hm5 Hm6 Hm7 Hm8 Hsems]
  · isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    iexact Hsems
  iexists _; isplitr
  rotate_left
  · iexact HO
  · ipureintro
    repeat (refine waits_step _ ?_)
    exact fun p hp => .inl hp

end Tile

end Cert.Proof.KB

end
-- ==== Proof.Layout.lean ====
/-
  The kernel's host side moves axis 0 of a [32, 243, 17, 256] array to position 2, flattens, and after the copy
  unflattens and moves the axis back: the four layout steps compose to the identity.
-/
import Idealize.ShloMosaic.PureOps
import Idealize.ShloMosaic.Lib.Pipeline.Value
import Idealize.ShloMosaic.Lib.ValueIdx

namespace Cert.Proof.Layout

open Idealize.ShloMosaic
open Idealize.ShloMosaic.ValueIdx

abbrev A : Shape := ⟨4, ![32, 243, 17, 256]⟩
abbrev B : Shape := ⟨4, ![243, 17, 32, 256]⟩
abbrev N : Shape := ⟨1, ![33841152]⟩

/-- Transposing by (1, 2, 0, 3), flattening, unflattening and transposing by (2, 0, 1, 3) gives the array back.
    Flattening and unflattening cancel, being a cast there and back. For the two transposes: the outer one, read at
    `j = (j₀, j₁, j₂, j₃)`, reads the inner array at the index `k` whose coordinate on axis `(2, 0, 1, 3)[b]` is `j b`,
    that is `k = (j₁, j₂, j₀, j₃)`; the inner one, read at `k`, reads `x` at the index whose coordinate on axis
    `(1, 2, 0, 3)[b]` is `k b`, which is `j` again. -/
theorem roundtrip {α : Type} (h1 : A.Transposes [1, 2, 0, 3] B) (h2 : B.ShapeCasts N) (h3 : N.ShapeCasts B) (h4 : B.Transposes [2, 0, 1, 3] A)
    (x : A.Idx → α) :
    transpose A [2, 0, 1, 3] (shapeCast B (shapeCast N (transpose B [1, 2, 0, 3] x h1) h2) h3) h4 = x := by
  rw [shapeCast_shapeCast]
  funext j
  have hk : ∀ b : Fin A.rank,
      ((ix4 (j 1) (j 2) (j 0) (j 3) : B.Idx) ([2, 0, 1, 3] : List (Fin B.rank))[b.cast h4.2.1]).val = (j b).val := by
    intro b
    match b with
    | ⟨0, _⟩ => rfl
    | ⟨1, _⟩ => rfl
    | ⟨2, _⟩ => rfl
    | ⟨3, _⟩ => rfl
  rw [transpose_apply [2, 0, 1, 3] _ h4 j (ix4 (j 1) (j 2) (j 0) (j 3)) hk]
  refine transpose_apply [1, 2, 0, 3] x h1 _ j ?_
  intro b
  match b with
  | ⟨0, _⟩ => rfl
  | ⟨1, _⟩ => rfl
  | ⟨2, _⟩ => rfl
  | ⟨3, _⟩ => rfl

end Cert.Proof.Layout
-- ==== Proof.LaunchKB.lean ====
/-
  The launch. Each tile's task is the body obligation; a SparseCore's sixteen tiles' chunks are exactly what its call
  hands it, so the split among the tiles is the identity. On the TensorCore, @main transposes the argument so that
  axis 0 comes third and flattens it, hands both flat arrays chunk by chunk to the two SparseCores, gets them back with
  the destination equal to the source, unflattens and moves the axis back: the four layout steps compose to the
  identity, so the result array ends equal to the argument, which is never written.
-/
import proofs.«208078_g33122787787296_cont_8to1_b_435_17_alg».proof.Proof.TileKB
import proofs.«208078_g33122787787296_cont_8to1_b_435_17_alg».proof.Proof.Layout

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_copy (coordsV c s)
          srcV (Memref.isWhole_whole _) dstV (Memref.isWhole_whole _) b0 (Memref.isWhole_whole _) b1 (Memref.isWhole_whole _) b2 (Memref.isWhole_whole _)
          cc0_scratch3 cc0_scratch4 cc0_scratch5 cc0_scratch6 cc0_scratch7 cc0_scratch8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (X f₀ : Dev nD → Flat F) : (K (F := F)).TileObl (D (F := F)) 𝒱 (P X f₀) v₀ 0 := by
  intro d c i O W hO _ _
  simp only [show (P X f₀).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) facts (X d) (f₀ d) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

set_option maxHeartbeats 2000000 in
/-- A SparseCore's chunks are its sixteen tiles' chunks, before and after. -/
theorem vecSplit (X f₀ : Dev nD → Flat F) : (K (F := F)).VecSplit' (P X f₀) 0 := by
  intro d c
  show coreRes d (X d) (f₀ d) (Fin.cast nCore_zero c) ⊢ |={Set.univ}=> iprop(
      (bigSep Finset.univ fun i : Fin ((K (F := F)).nSub 0) => tileRes d (X d) (f₀ d) (Fin.cast nCore_zero c) (Fin.cast nSub_zero i))
      ∗ ((bigSep Finset.univ fun i : Fin ((K (F := F)).nSub 0) => tileRes d (X d) (X d) (Fin.cast nCore_zero c) (Fin.cast nSub_zero i))
          -∗ coreRes d (X d) (X d) (Fin.cast nCore_zero c)))
  rw [bigSep_tasks (F := F) (fun i => tileRes d (X d) (f₀ d) (Fin.cast nCore_zero c) i),
    bigSep_tasks (F := F) (fun i => tileRes d (X d) (X d) (Fin.cast nCore_zero c) i)]
  unfold coreRes
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (X f₀ : Dev nD → Flat F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X f₀).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

variable (m : (ℓ : Loc nD τ sig) → Buf (Elt F) ℓ) (ρ : Dev nD → PrngReg)

abbrev argLoc (d : Dev nD) : Loc nD τ sig := (SparseCore.T d).loc main_arg0
abbrev resLoc (d : Dev nD) : Loc nD τ sig := (SparseCore.T d).loc main_v4

abbrev a0' : DevRef τ sig := Proc.devRef .tc (main_arg0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The TensorCore's arrays, all unscoped. -/
abbrev S6 : Finset (DevRef τ sig) := {a0', v0', v1', v2', v3', v4'}

/-- The four layout steps of @main, as operations. -/
abbrev op1 : HloOp τ sig (Elt F) := StableHlo.unary main_arg0 main_v0 ((transpose S243x17x32x256 [1, 2, 0, 3] · Facts₀.transposes_S32x243x17x256_S243x17x32x256_1_2_0_3) : (⟨S32x243x17x256, .f32⟩ : BufTy).Contents (Elt F) → (⟨S243x17x32x256, .f32⟩ : BufTy).Contents (Elt F))
abbrev op2 : HloOp τ sig (Elt F) := StableHlo.reshape main_v0 main_v1 rfl Facts₀.shapeCasts_S243x17x32x256_S33841152
abbrev op3 : HloOp τ sig (Elt F) := StableHlo.reshape main_v2 main_v3 rfl Facts₀.shapeCasts_S33841152_S243x17x32x256
abbrev op4 : HloOp τ sig (Elt F) := StableHlo.unary main_v3 main_v4 ((transpose S32x243x17x256 [2, 0, 1, 3] · Facts₀.transposes_S243x17x32x256_S32x243x17x256_2_0_1_3) : (⟨S243x17x32x256, .f32⟩ : BufTy).Contents (Elt F) → (⟨S32x243x17x256, .f32⟩ : BufTy).Contents (Elt F))

omit [FloatOps F] in
theorem held_S6 (d : Dev nD) (W : Valuation τ sig (Elt F)) :
    (held (T d) S6 W : sProp 𝕄) = iprop((argLoc d ↦{fullShare} W a0') ∗ ((SparseCore.T d).loc main_v0 ↦{fullShare} W v0') ∗ (srcLoc d ↦{fullShare} W v1')
      ∗ (dstLoc d ↦{fullShare} W v2') ∗ ((SparseCore.T d).loc main_v3 ↦{fullShare} W v3') ∗ (resLoc d ↦{fullShare} W v4')) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((argLoc d ↦{fullShare} W main_arg0) ∗ ((SparseCore.T d).loc main_v0 ↦{fullShare} W main_v0) ∗ (srcLoc d ↦{fullShare} W main_v1)
      ∗ (dstLoc d ↦{fullShare} W main_v2) ∗ ((SparseCore.T d).loc main_v3 ↦{fullShare} W main_v3) ∗ (resLoc d ↦{fullShare} W main_v4)) := by
  unfold unscopedBufs
  rw [show (Finset.univ.filter fun b : Ref sig .tc => ¬ b.isScoped) = {main_arg0, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S6 (V0 m d) := by
  rw [unscopedBufs_eq, held_S6]; rfl

/-- What the source array holds when the call is made: the argument with axis 0 moved third, flattened. -/
def Xof (d : Dev nD) : Flat F :=
  shapeCast S33841152 (transpose S243x17x32x256 [1, 2, 0, 3] (m (argLoc d) : S32x243x17x256.Idx → Elt F .f32)
    Facts₀.transposes_S32x243x17x256_S243x17x32x256_1_2_0_3) Facts₀.shapeCasts_S243x17x32x256_S33841152
/-- What the destination holds then: its launch contents. -/
def f₀of (d : Dev nD) : Flat F := m (dstLoc d)

/-- The valuation when the call is made, and after it. -/
def V2 (d : Dev nD) : Valuation τ sig (Elt F) := (op2 (F := F)).result ((op1 (F := F)).result (V0 m d))
def V3 (d : Dev nD) : Valuation τ sig (Elt F) := Function.update (V2 m d) v2' (Xof m d)
def V5 (d : Dev nD) : Valuation τ sig (Elt F) := (op4 (F := F)).result ((op3 (F := F)).result (V3 m d))

theorem h1sub : (op1 (F := F)).bufs ⊆ S6 := show ({a0', v0'} : Finset (DevRef τ sig)) ⊆ S6 by decide
theorem h2sub : (op2 (F := F)).bufs ⊆ S6 := show ({v0', v1'} : Finset (DevRef τ sig)) ⊆ S6 by decide
theorem h3sub : (op3 (F := F)).bufs ⊆ S6 := show ({v2', v3'} : Finset (DevRef τ sig)) ⊆ S6 by decide
theorem h4sub : (op4 (F := F)).bufs ⊆ S6 := show ({v3', v4'} : Finset (DevRef τ sig)) ⊆ S6 by decide

theorem V2_v1 (d : Dev nD) : V2 m d v1' = Xof m d := by
  unfold V2 Xof op2 op1
  rw [StableHlo.reshape_result, StableHlo.unary_result]
  rfl
theorem V2_v2 (d : Dev nD) : V2 m d v2' = f₀of m d := by
  unfold V2 f₀of op2 op1
  rw [StableHlo.reshape_result_ne (r := main_v2), StableHlo.unary_result_ne (r := main_v2)]
  all_goals first | decide | rfl
theorem V3_v2 (d : Dev nD) : V3 m d v2' = Xof m d := Function.update_self _ _ _
theorem V3_ne (d : Dev nD) {b : DevRef τ sig} (h : b ≠ v2') : V3 m d b = V2 m d b := Function.update_of_ne h _ _

/-- After @main the result array holds the argument, and the argument is what it was. -/
theorem V5_v4 (d : Dev nD) : V5 m d v4' = (m (argLoc d) : S32x243x17x256.Idx → Elt F .f32) := by
  unfold V5 op4 op3
  rw [StableHlo.unary_result, StableHlo.reshape_result, V3_v2]
  exact Cert.Proof.Layout.roundtrip _ _ _ _ _
theorem V5_a0 (d : Dev nD) : V5 m d a0' = m (argLoc d) := by
  unfold V5 op4 op3
  rw [StableHlo.unary_result_ne (r := main_arg0), StableHlo.reshape_result_ne (r := main_arg0),
    V3_ne m d (show a0' ≠ v2' by decide)]
  · unfold V2 op2 op1
    rw [StableHlo.reshape_result_ne (r := main_arg0), StableHlo.unary_result_ne (r := main_arg0)]
    all_goals first | decide | rfl
  all_goals decide

/-- What the call takes for the two SparseCores, and what it hands back. -/
theorem st0_eq (d : Dev nD) (X f₀ : Dev nD → Flat F) :
    (bigSep Finset.univ fun c : Fin ((K (F := F)).nCore 0) => (P X f₀).st 0 d c) = iprop((srcLoc d ↦{fullShare} X d) ∗ (dstLoc d ↦{fullShare} f₀ d)) := by
  show (bigSep Finset.univ fun c : Fin ((K (F := F)).nCore 0) => coreRes d (X d) (f₀ d) (Fin.cast nCore_zero c)) = _
  rw [bigSep_cores (F := F) (fun c => coreRes d (X d) (f₀ d) c), arrays_split]
theorem dn0_eq (d : Dev nD) (X f₀ : Dev nD → Flat F) :
    (bigSep Finset.univ fun c : Fin ((K (F := F)).nCore 0) => (P X f₀).dn 0 d c) = iprop((srcLoc d ↦{fullShare} X d) ∗ (dstLoc d ↦{fullShare} X d)) := by
  show (bigSep Finset.univ fun c : Fin ((K (F := F)).nCore 0) => coreRes d (X d) (X d) (Fin.cast nCore_zero c)) = _
  rw [bigSep_cores (F := F) (fun c => coreRes d (X d) (X d) c), arrays_split]

/-- What @main leaves the claim: the argument at its launch contents, the result equal to it. -/
abbrev FIN (d : Dev nD) : sProp 𝕄 := iprop((argLoc d ↦{fullShare} m (argLoc d)) ∗ (resLoc d ↦{fullShare} (m (argLoc d) : S32x243x17x256.Idx → Elt F .f32)))

theorem hmain (κ : GSem nD τ sig → ℕ) (d : Dev nD) :
    iprop((K (F := F)).ctx EH (P (Xof m) (f₀of m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the transposition, then the flattening
  iapply (wp_hlo_within 𝒱 (SparseCore.T d) none Set.univ (op := op1) (S := S6) h1sub (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S6) h2sub (V := (op1 (F := F)).result (V0 m d))) $$ [Hb Hheld]
  · isplitl [Hb]; · iexact Hb
    iexact Hheld
  iintro ⟨Hb, Hheld⟩
  rw [wp_ret]; imodintro
  ihave Hh := (Entails.of_eq (held_S6 (F := F) d _)) $$ Hheld
  icases Hh with ⟨Ha0, Hv0, Hv1, Hv2, Hv3, Hv4⟩
  -- the call: both flat arrays, chunk by chunk, to the two SparseCores and back
  iapply ((K (F := F)).wp_run (D (F := F)) 𝒱 (EH := EH) (P := P (Xof m) (f₀of m)) κ d 0) $$ [Hst Hv1 Hv2 Hb Ha0 Hv0 Hv3 Hv4]
  isplitr; · iexact Hctx
  isplitl [Hst]; · iexact Hst
  isplitl [Hv1 Hv2]
  · rw [st0_eq, ← V2_v1 m d, ← V2_v2 m d]
    isplitl [Hv1]; · iexact Hv1
    iexact Hv2
  iintro ⟨Hst, Hdn⟩
  ihave Hdn' := (Entails.of_eq (dn0_eq d (Xof m) (f₀of m))) $$ Hdn
  icases Hdn' with ⟨Hv1, Hv2⟩
  -- the unflattening, then the transposition back
  iapply (wp_hlo_within 𝒱 (SparseCore.T d) none Set.univ (op := op3) (S := S6) h3sub (V := V3 m d)) $$ [Hb Ha0 Hv0 Hv1 Hv2 Hv3 Hv4]
  · isplitl [Hb]; · iexact Hb
    rw [held_S6, V3_v2, V3_ne m d (show a0' ≠ v2' by decide), V3_ne m d (show v0' ≠ v2' by decide), V3_ne m d (show v1' ≠ v2' by decide),
      V3_ne m d (show v3' ≠ v2' by decide), V3_ne m d (show v4' ≠ v2' by decide), V2_v1]
    isplitl [Ha0]; · iexact Ha0
    isplitl [Hv0]; · iexact Hv0
    isplitl [Hv1]; · iexact Hv1
    isplitl [Hv2]; · iexact Hv2
    isplitl [Hv3]; · iexact Hv3
    iexact Hv4
  iintro ⟨Hb, Hheld⟩
  rw [wp_ret]; imodintro
  iapply (wp_hlo_within 𝒱 (SparseCore.T d) none Set.univ (op := op4) (S := S6) h4sub (V := (op3 (F := F)).result (V3 m d))) $$ [Hb Hheld]
  · isplitl [Hb]; · iexact Hb
    iexact Hheld
  iintro ⟨Hb, Hheld⟩
  ihave Hh := (Entails.of_eq (held_S6 (F := F) d _)) $$ Hheld
  icases Hh with ⟨Ha0, -, -, -, -, Hv4⟩
  rw [wp_ret]; imodintro; imodintro
  isplitl [Hst]; · iexact Hst
  isplitl [Ha0]
  · iapply (Entails.of_eq (congrArg (fun v => (argLoc d ↦{fullShare} v : sProp 𝕄)) (V5_a0 m d))); iexact Ha0
  · iapply (Entails.of_eq (congrArg (fun v => (resLoc d ↦{fullShare} v : sProp 𝕄)) (V5_v4 m d))); iexact Hv4

def fq (d : Dev nD) (s' : Phys nD τ sig (Elt F)) : Prop :=
  s'.mem.mem (argLoc d) = m (argLoc d) ∧ s'.mem.mem (resLoc d) = (m (argLoc d) : S32x243x17x256.Idx → Elt F .f32)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := argLoc d) (I := Finset.univ) (q := fullShare) (f := m (argLoc d)))) $$ [HSI Ha]
  · isplitl [HSI] <;> iassumption
  icases H with ⟨%h1, HSI, -⟩
  ihave H := (SI_pointsTo_agree (st := s') (ℓ := resLoc d) (I := Finset.univ) (q := fullShare) (f := (m (argLoc d) : S32x243x17x256.Idx → Elt F .f32))) $$ [HSI Hr]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => ∀ c : Dev nD,
  r.2.mem (argLoc c) = m (argLoc c) ∧ r.2.mem (resLoc c) = (m (argLoc c) : S32x243x17x256.Idx → Elt F .f32)

/-- Every weakly fair execution of the device's threads terminates, nothing faulting, with the argument unchanged and
    the result array equal to it. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (Xof m) (f₀of m)) facts v₀
    (fun q hq => match q with | 0 => nomatch hq)
    (fun q _ => match q with | 0 => tileObl (Xof m) (f₀of m))
    (fun q _ => match q with | 0 => SparseCore.Cfg.VecSplit.of_plain (vecSplit (Xof m) (f₀of m)))
    m ρ main (fun _ => iprop(emp)) (FIN m) (u₀ (F := F)) (sep_elim_left.trans (hu₀ (Xof m) (f₀of m))) (hmain m ρ) (fq m) (hfin m) (QC m) (fun _ h => h)

end Cert.Proof.KB

end
-- ==== Proof.SetupKI.lean ====
/-
  The copy kernel as the SparseCore launch theorem sees it, and what its one call carries.

  The flat source array (the transposed, flattened argument) and the flat destination array are cut into 1,024
  chunks of 33,048 elements. Tile `s` of SparseCore `c` is worker `2·s + c` and moves its 32 consecutive chunks,
  one at a time, from the source through one of three scratch buffers to the same place in the destination. The
  call hands each SparseCore its sixteen tiles' chunks of both arrays, each tile its 32 chunks, and brings them back
  with every destination chunk holding the source's elements.
-/
import proofs.«208078_g33122787787296_cont_8to1_b_435_17_alg».proof.Defs
import Idealize.ShloMosaic.Lib.SparseCore.Launch
import Idealize.ShloMosaic.Lib.StableHlo.Run
import Idealize.ShloMosaic.Lib.Pipeline.Kit
import Idealize.ShloMosaic.Lib.Tactic
import proofs.«208078_g33122787787296_cont_8to1_b_435_17_alg».proof.Proof.Gen.KernelIdeal
import proofs.«208078_g33122787787296_cont_8to1_b_435_17_alg».proof.Proof.Gen.KernelIdeal.Skeleton
import proofs.«208078_g33122787787296_cont_8to1_b_435_17_alg».proof.Proof.Chunks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The two flat arrays and their chunks -/

/-- The source (the flattened, transposed argument) and the destination (the kernel's result), as device `d`'s locations. -/
abbrev srcLoc (d : Dev nD) : Loc nD τ sig := (SparseCore.T d).loc main_v1
abbrev dstLoc (d : Dev nD) : Loc nD τ sig := (SparseCore.T d).loc main_v2

/-- A flat array's contents. -/
abbrev Flat (F : FTy → Type) : Type := S33841152.Idx → Elt F .f32

/-- Chunk `a = (c, s, g)` of both arrays: the source's at `X`, the destination's at `f`. -/
def pieceRes (d : Dev nD) (X f : Flat F) (a : Fin 2 × Fin 16 × Fin 32) : sProp 𝕄 :=
  iprop((srcLoc d ↦[Chunks.piece a]{fullShare} X) ∗ (dstLoc d ↦[Chunks.piece a]{fullShare} f))

instance pieceRes_storable (d : Dev nD) (X f : Flat F) (a : Fin 2 × Fin 16 × Fin 32) :
    BI.Storable (upEmb : UEmb _ 𝕄) (pieceRes d X f a) := by unfold pieceRes; infer_instance

/-- A tile's 32 chunks. -/
def tileRes (d : Dev nD) (X f : Flat F) (c : Fin 2) (s : Fin 16) : sProp 𝕄 :=
  bigSep Finset.univ fun g : Fin 32 => pieceRes d X f (c, s, g)

/-- A SparseCore's sixteen tiles' chunks. -/
def coreRes (d : Dev nD) (X f : Flat F) (c : Fin 2) : sProp 𝕄 :=
  bigSep Finset.univ fun s : Fin 16 => tileRes d X f c s

instance tileRes_storable (d : Dev nD) (X f : Flat F) (c : Fin 2) (s : Fin 16) :
    BI.Storable (upEmb : UEmb _ 𝕄) (tileRes d X f c s) := by unfold tileRes; infer_instance
instance coreRes_storable (d : Dev nD) (X f : Flat F) (c : Fin 2) :
    BI.Storable (upEmb : UEmb _ 𝕄) (coreRes d X f c) := by unfold coreRes; infer_instance

/-! ## The body's own spelling of a tile's thread, buffers and chunks -/

/-- The SparseCore and the tile that grid point `L` names, as the chip's, -/
abbrev cV (L : grid0.Coords) : Fin τ.nSC := (L 0).castLE hcore0
abbrev jV (L : grid0.Coords) : Fin τ.nSub := (L 1).castLE hsub0
/-- and as the grid's own coordinates. -/
abbrev cL (L : grid0.Coords) : Fin 2 := Fin.cast (show grid0.bound 0 = 2 from rfl) (L 0)
abbrev sL (L : grid0.Coords) : Fin 16 := Fin.cast (show grid0.bound 1 = 16 from rfl) (L 1)
abbrev thrV (d : Dev nD) (L : grid0.Coords) : Thread nD τ := V d (cV L) (jV L)

abbrev srcV : Memref sig .scVector .hbm S33841152 .f32 := Memref.whole main_v1_scv
abbrev dstV : Memref sig .scVector .hbm S33841152 .f32 := Memref.whole main_v2_scv
abbrev b0 : Memref sig .scVector .vmem S33048 .f32 := Memref.whole cc0_scratch0
abbrev b1 : Memref sig .scVector .vmem S33048 .f32 := Memref.whole cc0_scratch1
abbrev b2 : Memref sig .scVector .vmem S33048 .f32 := Memref.whole cc0_scratch2

/-- The chunk of 33,048 elements at the body's offset word `w`, of the source and of the destination, as the body slices them. -/
abbrev srcAt (L : grid0.Coords) (w : BitVec 32) (h : ∀ a, k0_off1 L w a + S33048.size a ≤ S33841152.size a) : Memref sig .scVector .hbm S33048 .f32 :=
  (srcV).slice (Rect.unit (s := S33841152) (k0_off1 L w) S33048.size h) (fun _ => rfl)
abbrev dstAt (L : grid0.Coords) (w : BitVec 32) (h : ∀ a, k0_off1 L w a + S33048.size a ≤ S33841152.size a) : Memref sig .scVector .hbm S33048 .f32 :=
  (dstV).slice (Rect.unit (s := S33841152) (k0_off1 L w) S33048.size h) (fun _ => rfl)

/-- A DMA semaphore of the tile, as a cell. -/
abbrev semCell (d : Dev nD) (L : grid0.Coords) (a : DmaSems sig S_) : GSem nD τ sig := (thrV d L, .dma a.sem)

/-! ## What the handshakes carry

`X d` is what the source array holds when the call is made, `f₀ d` what the destination holds then. The call takes
every chunk of both arrays and brings them back with the destination's chunks at `X d`. -/

def P (X f₀ : Dev nD → Flat F) : (K (F := F)).Pay (nD := nD) (Val := Elt F) (Name := ℕ) (U := UU) where
  st := fun q d c => match q with | 0 => coreRes d (X d) (f₀ d) (Fin.cast nCore_zero c)
  dn := fun q d c => match q with | 0 => coreRes d (X d) (X d) (Fin.cast nCore_zero c)
  go := fun q d c i => match q with | 0 => tileRes d (X d) (f₀ d) (Fin.cast nCore_zero c) (Fin.cast nSub_zero i)
  td := fun q d c i => match q with | 0 => tileRes d (X d) (X d) (Fin.cast nCore_zero c) (Fin.cast nSub_zero i)
  x := fun _ _ => iprop(emp)

instance P_storable (X f₀ : Dev nD → Flat F) : (P (F := F) X f₀).IsStorable where
  st q d c := match q with
    | 0 => (inferInstance : BI.Storable (upEmb : UEmb _ 𝕄) (coreRes d (X d) (f₀ d) (Fin.cast nCore_zero c)))
  dn q d c := match q with
    | 0 => (inferInstance : BI.Storable (upEmb : UEmb _ 𝕄) (coreRes d (X d) (X d) (Fin.cast nCore_zero c)))
  go q d c i := match q with
    | 0 => (inferInstance : BI.Storable (upEmb : UEmb _ 𝕄) (tileRes d (X d) (f₀ d) (Fin.cast nCore_zero c) (Fin.cast nSub_zero i)))
  td q d c i := match q with
    | 0 => (inferInstance : BI.Storable (upEmb : UEmb _ 𝕄) (tileRes d (X d) (X d) (Fin.cast nCore_zero c) (Fin.cast nSub_zero i)))

end Cert.Proof.KI

end
-- ==== Proof.SplitKI.lean ====
/-
  The chunks in the two spellings: as pieces of the partition of the flat arrays, and as the rectangles the kernel's
  body slices at its offset words. A tile's `g`-th offset word is `33048·g` above its base `1057536·(2·s + c)`, so the
  rectangle it slices is chunk `(2·s + c)·32 + g`. A whole array is the separating conjunction of its 1,024 pieces.
-/
import proofs.«208078_g33122787787296_cont_8to1_b_435_17_alg».proof.Proof.SetupKI
import proofs.«208078_g33122787787296_cont_8to1_b_435_17_alg».proof.Proof.LibWholePiece

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The source's rectangle at tile `L`'s `g`-th offset word holds exactly chunk `(c, s, g)`'s elements; -/
theorem srcAt_set (L : grid0.Coords) (g : Fin 32) (w : BitVec 32) (hw : w = BitVec.ofNat 32 (33048 * g.val))
    (h : ∀ a, k0_off1 L w a + S33048.size a ≤ S33841152.size a) :
    (srcAt L w h).view.set = Chunks.piece (cL L, sL L, g) := by
  -- The offset word is `33048·g`, so the offset is `2115072·s + 1057536·c + 33048·g = 33048·((2·s + c)·32 + g)`:
  -- the rectangle is chunk `(2·s + c)·32 + g`, and a rectangle of a whole array holds the rectangle's own elements.
  subst hw
  have hR : Rect.unit (s := S33841152) (k0_off1 L (BitVec.ofNat 32 (33048 * g.val))) S33048.size h
      = Chunks.chunk (Chunks.tOf (cL L) (sL L) g) := by
    refine Chunks.unit_eq_chunk _ _ ?_ h
    rw [k0_off1_eq L g, Chunks.tOf_val]
    congr 1
    show 2115072 * (L 1).val + 1057536 * (L 0).val + 33048 * g.val = 33048 * ((2 * (L 1).val + (L 0).val) * 32 + g.val)
    omega
  show ((View.whole (main_v1_scv : Ref sig .scVector)).slice
      (Rect.unit (s := S33841152) (k0_off1 L (BitVec.ofNat 32 (33048 * g.val))) S33048.size h)).set = _
  rw [View.set_slice_whole, hR]

/-- and so does the destination's. -/
theorem dstAt_set (L : grid0.Coords) (g : Fin 32) (w : BitVec 32) (hw : w = BitVec.ofNat 32 (33048 * g.val))
    (h : ∀ a, k0_off1 L w a + S33048.size a ≤ S33841152.size a) :
    (dstAt L w h).view.set = Chunks.piece (cL L, sL L, g) := by
  -- As for the source: the same rectangle, of the other whole array.
  subst hw
  have hR : Rect.unit (s := S33841152) (k0_off1 L (BitVec.ofNat 32 (33048 * g.val))) S33048.size h
      = Chunks.chunk (Chunks.tOf (cL L) (sL L) g) := by
    refine Chunks.unit_eq_chunk _ _ ?_ h
    rw [k0_off1_eq L g, Chunks.tOf_val]
    congr 1
    show 2115072 * (L 1).val + 1057536 * (L 0).val + 33048 * g.val = 33048 * ((2 * (L 1).val + (L 0).val) * 32 + g.val)
    omega
  show ((View.whole (main_v2_scv : Ref sig .scVector)).slice
      (Rect.unit (s := S33841152) (k0_off1 L (BitVec.ofNat 32 (33048 * g.val))) S33048.size h)).set = _
  rw [View.set_slice_whole, hR]

/-- The source chunk read out and written whole through the destination's rectangle: on that rectangle the destination
    then agrees with the source, whatever it held. -/
theorem dst_lands (L : grid0.Coords) (w : BitVec 32) (h : ∀ a, k0_off1 L w a + S33048.size a ≤ S33841152.size a) (X f : Flat F) :
    ∀ j ∈ (dstAt L w h).view.set,
      ((dstAt L w h).view.writes (Elt F) f [⟨Rect.whole S33048, View.read (Elt F) (srcAt L w h).view X⟩]) j = X j := by
  -- An element of the rectangle is the place of some index `y` of the chunk. Read back through the destination's
  -- rectangle, the one whole-chunk write gives its payload at `y`, the source read at `y`; both rectangles place
  -- `y` at the same element.
  intro j hj
  obtain ⟨y, -, rfl⟩ := Finset.mem_map.mp hj
  have h1 : View.read (Elt F) (dstAt L w h).view
        ((dstAt L w h).view.writes (Elt F) f [⟨Rect.whole S33048, View.read (Elt F) (srcAt L w h).view X⟩]) y
      = View.read (Elt F) (srcAt L w h).view X y :=
    congrFun (Cert.LibWholePiece.read_writes_whole_cons (dstAt L w h).view f (View.read (Elt F) (srcAt L w h).view X) []) y
  rw [View.read_apply, View.read_apply, cast_eq, cast_eq] at h1
  exact h1

/-- A chunk of the source held in the body's spelling is the piece held in the launch's; -/
theorem pts_src (d : Dev nD) (L : grid0.Coords) (g : Fin 32) (w : BitVec 32) (hw : w = BitVec.ofNat 32 (33048 * g.val))
    (h : ∀ a, k0_off1 L w a + S33048.size a ≤ S33841152.size a) (X : Flat F) :
    ((srcAt L w h).view.loc (thrV d L) ↦[(srcAt L w h).view.set]{fullShare} X : sProp 𝕄)
      = (srcLoc d ↦[Chunks.piece (cL L, sL L, g)]{fullShare} X) := by
  rw [srcAt_set L g w hw h]

/-- the same for the destination. -/
theorem pts_dst (d : Dev nD) (L : grid0.Coords) (g : Fin 32) (w : BitVec 32) (hw : w = BitVec.ofNat 32 (33048 * g.val))
    (h : ∀ a, k0_off1 L w a + S33048.size a ≤ S33841152.size a) (f : Flat F) :
    ((dstAt L w h).view.loc (thrV d L) ↦[(dstAt L w h).view.set]{fullShare} f : sProp 𝕄)
      = (dstLoc d ↦[Chunks.piece (cL L, sL L, g)]{fullShare} f) := by
  rw [dstAt_set L g w hw h]

/-- A tile's 32 chunks, one by one. -/
theorem tileRes_unfold (d : Dev nD) (X f : Flat F) (c : Fin 2) (s : Fin 16) :
    (tileRes d X f c s : sProp 𝕄)
      = iprop(pieceRes d X f (c, s, 0)
          ∗ pieceRes d X f (c, s, 1)
          ∗ pieceRes d X f (c, s, 2)
          ∗ pieceRes d X f (c, s, 3)
          ∗ pieceRes d X f (c, s, 4)
          ∗ pieceRes d X f (c, s, 5)
          ∗ pieceRes d X f (c, s, 6)
          ∗ pieceRes d X f (c, s, 7)
          ∗ pieceRes d X f (c, s, 8)
          ∗ pieceRes d X f (c, s, 9)
          ∗ pieceRes d X f (c, s, 10)
          ∗ pieceRes d X f (c, s, 11)
          ∗ pieceRes d X f (c, s, 12)
          ∗ pieceRes d X f (c, s, 13)
          ∗ pieceRes d X f (c, s, 14)
          ∗ pieceRes d X f (c, s, 15)
          ∗ pieceRes d X f (c, s, 16)
          ∗ pieceRes d X f (c, s, 17)
          ∗ pieceRes d X f (c, s, 18)
          ∗ pieceRes d X f (c, s, 19)
          ∗ pieceRes d X f (c, s, 20)
          ∗ pieceRes d X f (c, s, 21)
          ∗ pieceRes d X f (c, s, 22)
          ∗ pieceRes d X f (c, s, 23)
          ∗ pieceRes d X f (c, s, 24)
          ∗ pieceRes d X f (c, s, 25)
          ∗ pieceRes d X f (c, s, 26)
          ∗ pieceRes d X f (c, s, 27)
          ∗ pieceRes d X f (c, s, 28)
          ∗ pieceRes d X f (c, s, 29)
          ∗ pieceRes d X f (c, s, 30)
          ∗ pieceRes d X f (c, s, 31)) := by
  -- The 32 indices listed in order, without repetition.
  unfold tileRes
  exact bigSep_univ_eq_bigSepL [0, 1, 2, 3, 4, 5, 6, 7, 8, 9, 10, 11, 12, 13, 14, 15, 16, 17, 18, 19, 20, 21, 22, 23, 24, 25, 26, 27, 28, 29, 30, 31] (by decide) (by decide) _

/-- Both arrays whole are the 2 × 16 tiles' chunks. -/
theorem arrays_split (d : Dev nD) (X f : Flat F) :
    (iprop((srcLoc d ↦{fullShare} X) ∗ (dstLoc d ↦{fullShare} f)) : sProp 𝕄)
      = bigSep Finset.univ fun c : Fin 2 => coreRes d X f c := by
  -- Each whole array is its 1,024 pieces (pairwise disjoint, covering it); pair the source's and the destination's
  -- piece of each triple, then group the triples by SparseCore, then by tile.
  have hs : (srcLoc d ↦{fullShare} X : sProp 𝕄)
      = bigSep Finset.univ fun a : Fin 2 × Fin 16 × Fin 32 => srcLoc d ↦[Chunks.piece a]{fullShare} X := by
    rw [← pointsTo_biUnion Finset.univ (ℓ := srcLoc d) Chunks.piece Chunks.pieces_disjoint, Chunks.pieces_cover]
  have hd : (dstLoc d ↦{fullShare} f : sProp 𝕄)
      = bigSep Finset.univ fun a : Fin 2 × Fin 16 × Fin 32 => dstLoc d ↦[Chunks.piece a]{fullShare} f := by
    rw [← pointsTo_biUnion Finset.univ (ℓ := dstLoc d) Chunks.piece Chunks.pieces_disjoint, Chunks.pieces_cover]
  rw [hs, hd, ← bigSep_sep', BI.bigSep_univ_prod]
  refine bigSep_congr fun c _ => ?_
  rw [BI.bigSep_univ_prod]
  rfl

end Cert.Proof.KI

end
-- ==== Proof.TileKI.lean ====
/-
  One tile's task. The tile holds its 32 chunks of the source and of the destination, its three scratch buffers and
  its six DMA semaphores at zero. Chunk `g` goes through scratch `g mod 3`: copied in on that slot's incoming
  semaphore, waited for, copied out to the same place of the destination on the slot's outgoing semaphore; the
  copy-out of chunk `g - 3` is waited for before chunk `g` is copied into the slot. So each semaphore carries one
  copy at a time, and no buffer is touched while a copy on it is outstanding. A copy-out's payload is the scratch
  read whole after the copy-in wrote it whole, that is, the source chunk; written through the destination's
  rectangle it makes the destination agree with the source there.
-/
import proofs.«208078_g33122787787296_cont_8to1_b_435_17_alg».proof.Proof.SplitKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile

variable (d : Dev nD) (L : grid0.Coords)

abbrev m3 (d : Dev nD) (L : grid0.Coords) : GSem nD τ sig := semCell d L cc0_scratch3
abbrev m4 (d : Dev nD) (L : grid0.Coords) : GSem nD τ sig := semCell d L cc0_scratch4
abbrev m5 (d : Dev nD) (L : grid0.Coords) : GSem nD τ sig := semCell d L cc0_scratch5
abbrev m6 (d : Dev nD) (L : grid0.Coords) : GSem nD τ sig := semCell d L cc0_scratch6
abbrev m7 (d : Dev nD) (L : grid0.Coords) : GSem nD τ sig := semCell d L cc0_scratch7
abbrev m8 (d : Dev nD) (L : grid0.Coords) : GSem nD τ sig := semCell d L cc0_scratch8

omit [FloatOps F] in
/-- The tile's six DMA semaphores are among its scoped cells: they at zero, and the rest. -/
theorem ownSems0_V :
    (ownSems0 (thrV d L) : sProp 𝕄)
      = iprop(semVal (m3 d L) 0 ∗ semVal (m4 d L) 0 ∗ semVal (m5 d L) 0 ∗ semVal (m6 d L) 0 ∗ semVal (m7 d L) 0 ∗ semVal (m8 d L) 0
          ∗ bigSep (((((((ownCells (thrV d L)).erase (semCell d L cc0_scratch3)).erase (semCell d L cc0_scratch4)).erase (semCell d L cc0_scratch5)).erase (semCell d L cc0_scratch6)).erase (semCell d L cc0_scratch7)).erase (semCell d L cc0_scratch8)) fun g => semVal g 0) := by
  unfold SparseCore.Cfg.ownSems0
  rw [SparseCore.bigSep_erase' ((mem_ownCells (g := semCell d L cc0_scratch3)).mpr ⟨rfl, by show (SemLoc.dma cc0_scratch3.sem : SemLoc sig).isScoped .scVector = true; decide⟩),
    SparseCore.bigSep_erase' (Finset.mem_erase.mpr ⟨(fun e => absurd (congrArg Prod.snd e) (show (SemLoc.dma cc0_scratch4.sem : SemLoc sig) ≠ SemLoc.dma cc0_scratch3.sem by decide)), ((mem_ownCells (g := semCell d L cc0_scratch4)).mpr ⟨rfl, by show (SemLoc.dma cc0_scratch4.sem : SemLoc sig).isScoped .scVector = true; decide⟩)⟩),
    SparseCore.bigSep_erase' (Finset.mem_erase.mpr ⟨(fun e => absurd (congrArg Prod.snd e) (show (SemLoc.dma cc0_scratch5.sem : SemLoc sig) ≠ SemLoc.dma cc0_scratch4.sem by decide)), (Finset.mem_erase.mpr ⟨(fun e => absurd (congrArg Prod.snd e) (show (SemLoc.dma cc0_scratch5.sem : SemLoc sig) ≠ SemLoc.dma cc0_scratch3.sem by decide)), ((mem_ownCells (g := semCell d L cc0_scratch5)).mpr ⟨rfl, by show (SemLoc.dma cc0_scratch5.sem : SemLoc sig).isScoped .scVector = true; decide⟩)⟩)⟩),
    SparseCore.bigSep_erase' (Finset.mem_erase.mpr ⟨(fun e => absurd (congrArg Prod.snd e) (show (SemLoc.dma cc0_scratch6.sem : SemLoc sig) ≠ SemLoc.dma cc0_scratch5.sem by decide)), (Finset.mem_erase.mpr ⟨(fun e => absurd (congrArg Prod.snd e) (show (SemLoc.dma cc0_scratch6.sem : SemLoc sig) ≠ SemLoc.dma cc0_scratch4.sem by decide)), (Finset.mem_erase.mpr ⟨(fun e => absurd (congrArg Prod.snd e) (show (SemLoc.dma cc0_scratch6.sem : SemLoc sig) ≠ SemLoc.dma cc0_scratch3.sem by decide)), ((mem_ownCells (g := semCell d L cc0_scratch6)).mpr ⟨rfl, by show (SemLoc.dma cc0_scratch6.sem : SemLoc sig).isScoped .scVector = true; decide⟩)⟩)⟩)⟩),
    SparseCore.bigSep_erase' (Finset.mem_erase.mpr ⟨(fun e => absurd (congrArg Prod.snd e) (show (SemLoc.dma cc0_scratch7.sem : SemLoc sig) ≠ SemLoc.dma cc0_scratch6.sem by decide)), (Finset.mem_erase.mpr ⟨(fun e => absurd (congrArg Prod.snd e) (show (SemLoc.dma cc0_scratch7.sem : SemLoc sig) ≠ SemLoc.dma cc0_scratch5.sem by decide)), (Finset.mem_erase.mpr ⟨(fun e => absurd (congrArg Prod.snd e) (show (SemLoc.dma cc0_scratch7.sem : SemLoc sig) ≠ SemLoc.dma cc0_scratch4.sem by decide)), (Finset.mem_erase.mpr ⟨(fun e => absurd (congrArg Prod.snd e) (show (SemLoc.dma cc0_scratch7.sem : SemLoc sig) ≠ SemLoc.dma cc0_scratch3.sem by decide)), ((mem_ownCells (g := semCell d L cc0_scratch7)).mpr ⟨rfl, by show (SemLoc.dma cc0_scratch7.sem : SemLoc sig).isScoped .scVector = true; decide⟩)⟩)⟩)⟩)⟩),
    SparseCore.bigSep_erase' (Finset.mem_erase.mpr ⟨(fun e => absurd (congrArg Prod.snd e) (show (SemLoc.dma cc0_scratch8.sem : SemLoc sig) ≠ SemLoc.dma cc0_scratch7.sem by decide)), (Finset.mem_erase.mpr ⟨(fun e => absurd (congrArg Prod.snd e) (show (SemLoc.dma cc0_scratch8.sem : SemLoc sig) ≠ SemLoc.dma cc0_scratch6.sem by decide)), (Finset.mem_erase.mpr ⟨(fun e => absurd (congrArg Prod.snd e) (show (SemLoc.dma cc0_scratch8.sem : SemLoc sig) ≠ SemLoc.dma cc0_scratch5.sem by decide)), (Finset.mem_erase.mpr ⟨(fun e => absurd (congrArg Prod.snd e) (show (SemLoc.dma cc0_scratch8.sem : SemLoc sig) ≠ SemLoc.dma cc0_scratch4.sem by decide)), (Finset.mem_erase.mpr ⟨(fun e => absurd (congrArg Prod.snd e) (show (SemLoc.dma cc0_scratch8.sem : SemLoc sig) ≠ SemLoc.dma cc0_scratch3.sem by decide)), ((mem_ownCells (g := semCell d L cc0_scratch8)).mpr ⟨rfl, by show (SemLoc.dma cc0_scratch8.sem : SemLoc sig).isScoped .scVector = true; decide⟩)⟩)⟩)⟩)⟩)⟩)]

omit [FloatOps F] in
/-- The three scratch buffers are among the tile's own: they at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f)
          ∗ bigSep ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨(fun e => absurd (Proc.devRef_injective _ e) (show (cc0_scratch1 : Ref sig .scVector) ≠ cc0_scratch0 by decide)), (SparseCore.Cfg.mem_ownRefs_of_owner (p := Proc.scVector (cV L) (jV L)) (b := (Proc.scVector (cV L) (jV L)).devRef cc0_scratch1) rfl)⟩),
    SparseCore.bigSep_erase' (Finset.mem_erase.mpr ⟨(fun e => absurd (Proc.devRef_injective _ e) (show (cc0_scratch2 : Ref sig .scVector) ≠ cc0_scratch1 by decide)), (Finset.mem_erase.mpr ⟨(fun e => absurd (Proc.devRef_injective _ e) (show (cc0_scratch2 : Ref sig .scVector) ≠ cc0_scratch0 by decide)), (SparseCore.Cfg.mem_ownRefs_of_owner (p := Proc.scVector (cV L) (jV L)) (b := (Proc.scVector (cV L) (jV L)).devRef cc0_scratch2) rfl)⟩)⟩)]

omit [FloatOps F] in
theorem pts_b0 (f : S33048.Idx → Elt F .f32) :
    ((b0).view.loc (thrV d L) ↦[(b0).view.set]{fullShare} f : sProp 𝕄) = (thrV d L).loc cc0_scratch0 ↦{fullShare} f := by
  simp only [Memref.view_whole, View.set_whole]
omit [FloatOps F] in
theorem pts_b1 (f : S33048.Idx → Elt F .f32) :
    ((b1).view.loc (thrV d L) ↦[(b1).view.set]{fullShare} f : sProp 𝕄) = (thrV d L).loc cc0_scratch1 ↦{fullShare} f := by
  simp only [Memref.view_whole, View.set_whole]
omit [FloatOps F] in
theorem pts_b2 (f : S33048.Idx → Elt F .f32) :
    ((b2).view.loc (thrV d L) ↦[(b2).view.set]{fullShare} f : sProp 𝕄) = (thrV d L).loc cc0_scratch2 ↦{fullShare} f := by
  simp only [Memref.view_whole, View.set_whole]

omit [FloatOps F] in
/-- A destination chunk written whole with the source chunk's elements is the piece at the source's contents. -/
theorem dst_done (g : Fin 32) (w : BitVec 32) (hw : w = BitVec.ofNat 32 (33048 * g.val))
    (h : ∀ a, k0_off1 L w a + S33048.size a ≤ S33841152.size a) (X f : Flat F) (pay : S33048.Idx → Elt F .f32)
    (hpay : pay = View.read (Elt F) (srcAt L w h).view X) :
    ((dstAt L w h).view.loc (thrV d L) ↦[(dstAt L w h).view.set]{fullShare}
        ((dstAt L w h).view.writes (Elt F) f [⟨Rect.whole S33048, pay⟩]) : sProp 𝕄)
      = (dstLoc d ↦[Chunks.piece (cL L, sL L, g)]{fullShare} X) := by
  subst hpay
  rw [pointsTo_congr (dst_lands L w h X f), pts_dst d L g w hw h X]

omit [FloatOps F] in
/-- Waits recorded at the kernels' own index stay within what the launch allows. -/
theorem waits_step {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

set_option maxRecDepth 65536 in
set_option maxHeartbeats 4000000 in
/-- The task: from the tile's chunks, the source's at `X`, to the same chunks with the destination's at `X` too. -/
theorem tile_body (hF : (K (F := F)).Facts) (X f : Flat F) (O : CellTallies nD τ sig (HIx 1)) (W : Waits sig (HIx 1)) (hO : ∀ g, O g none = 0) :
    iprop(levAts (K (F := F)).L (K (F := F)).lev ∗ emp ∗ tileRes d X f (cL L) (sL L)
        ∗ scopedBufs (thrV d L) ∗ scopedSems0 (thrV d L) ∗ owes (thrV d L) O W)
      ⊢ wp frame (wpE (defs₀ (F := F)) 𝒱₀ (thrV d L) none) Set.univ
          (cc0_sc_copy L srcV (Memref.isWhole_whole _) dstV (Memref.isWhole_whole _) b0 (Memref.isWhole_whole _) b1 (Memref.isWhole_whole _) b2 (Memref.isWhole_whole _)
            cc0_scratch3 cc0_scratch4 cc0_scratch5 cc0_scratch6 cc0_scratch7 cc0_scratch8)
          fun _ => iprop(tileRes d X X (cL L) (sL L) ∗ scopedBufs (thrV d L) ∗ scopedSems0 (thrV d L)
            ∗ ∃ W', ⌜∀ p ∈ W', p ∈ W ∨ p.2 = none⌝ ∗ owes (thrV d L) O W') := by
  simp only [cc0_sc_copy_eq_skeleton]; unfold cc0_sc_copy_skel
  rw [(K (F := F)).scopedBufs_V hF d (cV L) (jV L), SparseCore.Cfg.scopedSems0_V (Val := Elt F) d (cV L) (jV L), ownSems0_V, ownBufs_V,
    tileRes_unfold d X f, tileRes_unfold d X X]
  unfold pieceRes
  iintro ⟨#Hlv, -, ⟨⟨Hs0, Hd0⟩, ⟨Hs1, Hd1⟩, ⟨Hs2, Hd2⟩, ⟨Hs3, Hd3⟩, ⟨Hs4, Hd4⟩, ⟨Hs5, Hd5⟩, ⟨Hs6, Hd6⟩, ⟨Hs7, Hd7⟩, ⟨Hs8, Hd8⟩, ⟨Hs9, Hd9⟩, ⟨Hs10, Hd10⟩, ⟨Hs11, Hd11⟩, ⟨Hs12, Hd12⟩, ⟨Hs13, Hd13⟩, ⟨Hs14, Hd14⟩, ⟨Hs15, Hd15⟩, ⟨Hs16, Hd16⟩, ⟨Hs17, Hd17⟩, ⟨Hs18, Hd18⟩, ⟨Hs19, Hd19⟩, ⟨Hs20, Hd20⟩, ⟨Hs21, Hd21⟩, ⟨Hs22, Hd22⟩, ⟨Hs23, Hd23⟩, ⟨Hs24, Hd24⟩, ⟨Hs25, Hd25⟩, ⟨Hs26, Hd26⟩, ⟨Hs27, Hd27⟩, ⟨Hs28, Hd28⟩, ⟨Hs29, Hd29⟩, ⟨Hs30, Hd30⟩, ⟨Hs31, Hd31⟩⟩, ⟨⟨%f0, Hb0⟩, ⟨%f1, Hb1⟩, ⟨%f2, Hb2⟩, Hbufs⟩, ⟨Hm3, Hm4, Hm5, Hm6, Hm7, Hm8, Hsems⟩, HO⟩
  ihave Hmw := ((K (F := F)).mayWaits_none (thr := thrV d L) hO) $$ Hlv
  ihave Hs0 := (Entails.of_eq (pts_src (F := F) d L 0 0#32 rfl (k0_off1_inb L 0) X).symm) $$ Hs0
  ihave Hd0 := (Entails.of_eq (pts_dst (F := F) d L 0 0#32 rfl (k0_off1_inb L 0) f).symm) $$ Hd0
  ihave Hs1 := (Entails.of_eq (pts_src (F := F) d L 1 33048#32 rfl (k0_off1_inb L 1) X).symm) $$ Hs1
  ihave Hd1 := (Entails.of_eq (pts_dst (F := F) d L 1 33048#32 rfl (k0_off1_inb L 1) f).symm) $$ Hd1
  ihave Hs2 := (Entails.of_eq (pts_src (F := F) d L 2 66096#32 rfl (k0_off1_inb L 2) X).symm) $$ Hs2
  ihave Hd2 := (Entails.of_eq (pts_dst (F := F) d L 2 66096#32 rfl (k0_off1_inb L 2) f).symm) $$ Hd2
  ihave Hs3 := (Entails.of_eq (pts_src (F := F) d L 3 99144#32 rfl (k0_off1_inb L 3) X).symm) $$ Hs3
  ihave Hd3 := (Entails.of_eq (pts_dst (F := F) d L 3 99144#32 rfl (k0_off1_inb L 3) f).symm) $$ Hd3
  ihave Hs4 := (Entails.of_eq (pts_src (F := F) d L 4 132192#32 rfl (k0_off1_inb L 4) X).symm) $$ Hs4
  ihave Hd4 := (Entails.of_eq (pts_dst (F := F) d L 4 132192#32 rfl (k0_off1_inb L 4) f).symm) $$ Hd4
  ihave Hs5 := (Entails.of_eq (pts_src (F := F) d L 5 165240#32 rfl (k0_off1_inb L 5) X).symm) $$ Hs5
  ihave Hd5 := (Entails.of_eq (pts_dst (F := F) d L 5 165240#32 rfl (k0_off1_inb L 5) f).symm) $$ Hd5
  ihave Hs6 := (Entails.of_eq (pts_src (F := F) d L 6 198288#32 rfl (k0_off1_inb L 6) X).symm) $$ Hs6
  ihave Hd6 := (Entails.of_eq (pts_dst (F := F) d L 6 198288#32 rfl (k0_off1_inb L 6) f).symm) $$ Hd6
  ihave Hs7 := (Entails.of_eq (pts_src (F := F) d L 7 231336#32 rfl (k0_off1_inb L 7) X).symm) $$ Hs7
  ihave Hd7 := (Entails.of_eq (pts_dst (F := F) d L 7 231336#32 rfl (k0_off1_inb L 7) f).symm) $$ Hd7
  ihave Hs8 := (Entails.of_eq (pts_src (F := F) d L 8 264384#32 rfl (k0_off1_inb L 8) X).symm) $$ Hs8
  ihave Hd8 := (Entails.of_eq (pts_dst (F := F) d L 8 264384#32 rfl (k0_off1_inb L 8) f).symm) $$ Hd8
  ihave Hs9 := (Entails.of_eq (pts_src (F := F) d L 9 297432#32 rfl (k0_off1_inb L 9) X).symm) $$ Hs9
  ihave Hd9 := (Entails.of_eq (pts_dst (F := F) d L 9 297432#32 rfl (k0_off1_inb L 9) f).symm) $$ Hd9
  ihave Hs10 := (Entails.of_eq (pts_src (F := F) d L 10 330480#32 rfl (k0_off1_inb L 10) X).symm) $$ Hs10
  ihave Hd10 := (Entails.of_eq (pts_dst (F := F) d L 10 330480#32 rfl (k0_off1_inb L 10) f).symm) $$ Hd10
  ihave Hs11 := (Entails.of_eq (pts_src (F := F) d L 11 363528#32 rfl (k0_off1_inb L 11) X).symm) $$ Hs11
  ihave Hd11 := (Entails.of_eq (pts_dst (F := F) d L 11 363528#32 rfl (k0_off1_inb L 11) f).symm) $$ Hd11
  ihave Hs12 := (Entails.of_eq (pts_src (F := F) d L 12 396576#32 rfl (k0_off1_inb L 12) X).symm) $$ Hs12
  ihave Hd12 := (Entails.of_eq (pts_dst (F := F) d L 12 396576#32 rfl (k0_off1_inb L 12) f).symm) $$ Hd12
  ihave Hs13 := (Entails.of_eq (pts_src (F := F) d L 13 429624#32 rfl (k0_off1_inb L 13) X).symm) $$ Hs13
  ihave Hd13 := (Entails.of_eq (pts_dst (F := F) d L 13 429624#32 rfl (k0_off1_inb L 13) f).symm) $$ Hd13
  ihave Hs14 := (Entails.of_eq (pts_src (F := F) d L 14 462672#32 rfl (k0_off1_inb L 14) X).symm) $$ Hs14
  ihave Hd14 := (Entails.of_eq (pts_dst (F := F) d L 14 462672#32 rfl (k0_off1_inb L 14) f).symm) $$ Hd14
  ihave Hs15 := (Entails.of_eq (pts_src (F := F) d L 15 495720#32 rfl (k0_off1_inb L 15) X).symm) $$ Hs15
  ihave Hd15 := (Entails.of_eq (pts_dst (F := F) d L 15 495720#32 rfl (k0_off1_inb L 15) f).symm) $$ Hd15
  ihave Hs16 := (Entails.of_eq (pts_src (F := F) d L 16 528768#32 rfl (k0_off1_inb L 16) X).symm) $$ Hs16
  ihave Hd16 := (Entails.of_eq (pts_dst (F := F) d L 16 528768#32 rfl (k0_off1_inb L 16) f).symm) $$ Hd16
  ihave Hs17 := (Entails.of_eq (pts_src (F := F) d L 17 561816#32 rfl (k0_off1_inb L 17) X).symm) $$ Hs17
  ihave Hd17 := (Entails.of_eq (pts_dst (F := F) d L 17 561816#32 rfl (k0_off1_inb L 17) f).symm) $$ Hd17
  ihave Hs18 := (Entails.of_eq (pts_src (F := F) d L 18 594864#32 rfl (k0_off1_inb L 18) X).symm) $$ Hs18
  ihave Hd18 := (Entails.of_eq (pts_dst (F := F) d L 18 594864#32 rfl (k0_off1_inb L 18) f).symm) $$ Hd18
  ihave Hs19 := (Entails.of_eq (pts_src (F := F) d L 19 627912#32 rfl (k0_off1_inb L 19) X).symm) $$ Hs19
  ihave Hd19 := (Entails.of_eq (pts_dst (F := F) d L 19 627912#32 rfl (k0_off1_inb L 19) f).symm) $$ Hd19
  ihave Hs20 := (Entails.of_eq (pts_src (F := F) d L 20 660960#32 rfl (k0_off1_inb L 20) X).symm) $$ Hs20
  ihave Hd20 := (Entails.of_eq (pts_dst (F := F) d L 20 660960#32 rfl (k0_off1_inb L 20) f).symm) $$ Hd20
  ihave Hs21 := (Entails.of_eq (pts_src (F := F) d L 21 694008#32 rfl (k0_off1_inb L 21) X).symm) $$ Hs21
  ihave Hd21 := (Entails.of_eq (pts_dst (F := F) d L 21 694008#32 rfl (k0_off1_inb L 21) f).symm) $$ Hd21
  ihave Hs22 := (Entails.of_eq (pts_src (F := F) d L 22 727056#32 rfl (k0_off1_inb L 22) X).symm) $$ Hs22
  ihave Hd22 := (Entails.of_eq (pts_dst (F := F) d L 22 727056#32 rfl (k0_off1_inb L 22) f).symm) $$ Hd22
  ihave Hs23 := (Entails.of_eq (pts_src (F := F) d L 23 760104#32 rfl (k0_off1_inb L 23) X).symm) $$ Hs23
  ihave Hd23 := (Entails.of_eq (pts_dst (F := F) d L 23 760104#32 rfl (k0_off1_inb L 23) f).symm) $$ Hd23
  ihave Hs24 := (Entails.of_eq (pts_src (F := F) d L 24 793152#32 rfl (k0_off1_inb L 24) X).symm) $$ Hs24
  ihave Hd24 := (Entails.of_eq (pts_dst (F := F) d L 24 793152#32 rfl (k0_off1_inb L 24) f).symm) $$ Hd24
  ihave Hs25 := (Entails.of_eq (pts_src (F := F) d L 25 826200#32 rfl (k0_off1_inb L 25) X).symm) $$ Hs25
  ihave Hd25 := (Entails.of_eq (pts_dst (F := F) d L 25 826200#32 rfl (k0_off1_inb L 25) f).symm) $$ Hd25
  ihave Hs26 := (Entails.of_eq (pts_src (F := F) d L 26 859248#32 rfl (k0_off1_inb L 26) X).symm) $$ Hs26
  ihave Hd26 := (Entails.of_eq (pts_dst (F := F) d L 26 859248#32 rfl (k0_off1_inb L 26) f).symm) $$ Hd26
  ihave Hs27 := (Entails.of_eq (pts_src (F := F) d L 27 892296#32 rfl (k0_off1_inb L 27) X).symm) $$ Hs27
  ihave Hd27 := (Entails.of_eq (pts_dst (F := F) d L 27 892296#32 rfl (k0_off1_inb L 27) f).symm) $$ Hd27
  ihave Hs28 := (Entails.of_eq (pts_src (F := F) d L 28 925344#32 rfl (k0_off1_inb L 28) X).symm) $$ Hs28
  ihave Hd28 := (Entails.of_eq (pts_dst (F := F) d L 28 925344#32 rfl (k0_off1_inb L 28) f).symm) $$ Hd28
  ihave Hs29 := (Entails.of_eq (pts_src (F := F) d L 29 958392#32 rfl (k0_off1_inb L 29) X).symm) $$ Hs29
  ihave Hd29 := (Entails.of_eq (pts_dst (F := F) d L 29 958392#32 rfl (k0_off1_inb L 29) f).symm) $$ Hd29
  ihave Hs30 := (Entails.of_eq (pts_src (F := F) d L 30 991440#32 rfl (k0_off1_inb L 30) X).symm) $$ Hs30
  ihave Hd30 := (Entails.of_eq (pts_dst (F := F) d L 30 991440#32 rfl (k0_off1_inb L 30) f).symm) $$ Hd30
  ihave Hs31 := (Entails.of_eq (pts_src (F := F) d L 31 1024488#32 rfl (k0_off1_inb L 31) X).symm) $$ Hs31
  ihave Hd31 := (Entails.of_eq (pts_dst (F := F) d L 31 1024488#32 rfl (k0_off1_inb L 31) f).symm) $$ Hd31
  ihave Hb0 := (Entails.of_eq (pts_b0 (F := F) d L f0).symm) $$ Hb0
  ihave Hb1 := (Entails.of_eq (pts_b1 (F := F) d L f1).symm) $$ Hb1
  ihave Hb2 := (Entails.of_eq (pts_b2 (F := F) d L f2).symm) $$ Hb2
  sl_exec
  sl_step
  isplitl [Hs0 Hd0 Hs1 Hd1 Hs2 Hd2 Hs3 Hd3 Hs4 Hd4 Hs5 Hd5 Hs6 Hd6 Hs7 Hd7 Hs8 Hd8 Hs9 Hd9 Hs10 Hd10 Hs11 Hd11 Hs12 Hd12 Hs13 Hd13 Hs14 Hd14 Hs15 Hd15 Hs16 Hd16 Hs17 Hd17 Hs18 Hd18 Hs19 Hd19 Hs20 Hd20 Hs21 Hd21 Hs22 Hd22 Hs23 Hd23 Hs24 Hd24 Hs25 Hd25 Hs26 Hd26 Hs27 Hd27 Hs28 Hd28 Hs29 Hd29 Hs30 Hd30 Hs31 Hd31]
  · skip
    isplitl [Hs0 Hd0]
    · isplitl [Hs0]
      · iapply (Entails.of_eq (pts_src (F := F) d L 0 0#32 rfl (k0_off1_inb L 0) X)); iexact Hs0
      · iapply (Entails.of_eq (dst_done (F := F) d L 0 0#32 rfl (k0_off1_inb L 0) X f (tile_body.sl.dma0_3 d L X f0) (by
          unfold tile_body.sl.dma0_3 tile_body.sl.dma0
          exact Cert.LibWholePiece.read_writes_whole_cons _ _ _ _))); iexact Hd0
    isplitl [Hs1 Hd1]
    · isplitl [Hs1]
      · iapply (Entails.of_eq (pts_src (F := F) d L 1 33048#32 rfl (k0_off1_inb L 1) X)); iexact Hs1
      · iapply (Entails.of_eq (dst_done (F := F) d L 1 33048#32 rfl (k0_off1_inb L 1) X f (tile_body.sl.dma0_5 d L X f1) (by
          unfold tile_body.sl.dma0_5 tile_body.sl.dma0_1
          exact Cert.LibWholePiece.read_writes_whole_cons _ _ _ _))); iexact Hd1
    isplitl [Hs2 Hd2]
    · isplitl [Hs2]
      · iapply (Entails.of_eq (pts_src (F := F) d L 2 66096#32 rfl (k0_off1_inb L 2) X)); iexact Hs2
      · iapply (Entails.of_eq (dst_done (F := F) d L 2 66096#32 rfl (k0_off1_inb L 2) X f (tile_body.sl.dma0_7 d L X f2) (by
          unfold tile_body.sl.dma0_7 tile_body.sl.dma0_2
          exact Cert.LibWholePiece.read_writes_whole_cons _ _ _ _))); iexact Hd2
    isplitl [Hs3 Hd3]
    · isplitl [Hs3]
      · iapply (Entails.of_eq (pts_src (F := F) d L 3 99144#32 rfl (k0_off1_inb L 3) X)); iexact Hs3
      · iapply (Entails.of_eq (dst_done (F := F) d L 3 99144#32 rfl (k0_off1_inb L 3) X f (tile_body.sl.dma0_9 d L X f0) (by
          unfold tile_body.sl.dma0_9 tile_body.sl.dma0_4
          exact Cert.LibWholePiece.read_writes_whole_cons _ _ _ _))); iexact Hd3
    isplitl [Hs4 Hd4]
    · isplitl [Hs4]
      · iapply (Entails.of_eq (pts_src (F := F) d L 4 132192#32 rfl (k0_off1_inb L 4) X)); iexact Hs4
      · iapply (Entails.of_eq (dst_done (F := F) d L 4 132192#32 rfl (k0_off1_inb L 4) X f (tile_body.sl.dma0_11 d L X f1) (by
          unfold tile_body.sl.dma0_11 tile_body.sl.dma0_6
          exact Cert.LibWholePiece.read_writes_whole_cons _ _ _ _))); iexact Hd4
    isplitl [Hs5 Hd5]
    · isplitl [Hs5]
      · iapply (Entails.of_eq (pts_src (F := F) d L 5 165240#32 rfl (k0_off1_inb L 5) X)); iexact Hs5
      · iapply (Entails.of_eq (dst_done (F := F) d L 5 165240#32 rfl (k0_off1_inb L 5) X f (tile_body.sl.dma0_13 d L X f2) (by
          unfold tile_body.sl.dma0_13 tile_body.sl.dma0_8
          exact Cert.LibWholePiece.read_writes_whole_cons _ _ _ _))); iexact Hd5
    isplitl [Hs6 Hd6]
    · isplitl [Hs6]
      · iapply (Entails.of_eq (pts_src (F := F) d L 6 198288#32 rfl (k0_off1_inb L 6) X)); iexact Hs6
      · iapply (Entails.of_eq (dst_done (F := F) d L 6 198288#32 rfl (k0_off1_inb L 6) X f (tile_body.sl.dma0_15 d L X f0) (by
          unfold tile_body.sl.dma0_15 tile_body.sl.dma0_10
          exact Cert.LibWholePiece.read_writes_whole_cons _ _ _ _))); iexact Hd6
    isplitl [Hs7 Hd7]
    · isplitl [Hs7]
      · iapply (Entails.of_eq (pts_src (F := F) d L 7 231336#32 rfl (k0_off1_inb L 7) X)); iexact Hs7
      · iapply (Entails.of_eq (dst_done (F := F) d L 7 231336#32 rfl (k0_off1_inb L 7) X f (tile_body.sl.dma0_17 d L X f1) (by
          unfold tile_body.sl.dma0_17 tile_body.sl.dma0_12
          exact Cert.LibWholePiece.read_writes_whole_cons _ _ _ _))); iexact Hd7
    isplitl [Hs8 Hd8]
    · isplitl [Hs8]
      · iapply (Entails.of_eq (pts_src (F := F) d L 8 264384#32 rfl (k0_off1_inb L 8) X)); iexact Hs8
      · iapply (Entails.of_eq (dst_done (F := F) d L 8 264384#32 rfl (k0_off1_inb L 8) X f (tile_body.sl.dma0_19 d L X f2) (by
          unfold tile_body.sl.dma0_19 tile_body.sl.dma0_14
          exact Cert.LibWholePiece.read_writes_whole_cons _ _ _ _))); iexact Hd8
    isplitl [Hs9 Hd9]
    · isplitl [Hs9]
      · iapply (Entails.of_eq (pts_src (F := F) d L 9 297432#32 rfl (k0_off1_inb L 9) X)); iexact Hs9
      · iapply (Entails.of_eq (dst_done (F := F) d L 9 297432#32 rfl (k0_off1_inb L 9) X f (tile_body.sl.dma0_21 d L X f0) (by
          unfold tile_body.sl.dma0_21 tile_body.sl.dma0_16
          exact Cert.LibWholePiece.read_writes_whole_cons _ _ _ _))); iexact Hd9
    isplitl [Hs10 Hd10]
    · isplitl [Hs10]
      · iapply (Entails.of_eq (pts_src (F := F) d L 10 330480#32 rfl (k0_off1_inb L 10) X)); iexact Hs10
      · iapply (Entails.of_eq (dst_done (F := F) d L 10 330480#32 rfl (k0_off1_inb L 10) X f (tile_body.sl.dma0_23 d L X f1) (by
          unfold tile_body.sl.dma0_23 tile_body.sl.dma0_18
          exact Cert.LibWholePiece.read_writes_whole_cons _ _ _ _))); iexact Hd10
    isplitl [Hs11 Hd11]
    · isplitl [Hs11]
      · iapply (Entails.of_eq (pts_src (F := F) d L 11 363528#32 rfl (k0_off1_inb L 11) X)); iexact Hs11
      · iapply (Entails.of_eq (dst_done (F := F) d L 11 363528#32 rfl (k0_off1_inb L 11) X f (tile_body.sl.dma0_25 d L X f2) (by
          unfold tile_body.sl.dma0_25 tile_body.sl.dma0_20
          exact Cert.LibWholePiece.read_writes_whole_cons _ _ _ _))); iexact Hd11
    isplitl [Hs12 Hd12]
    · isplitl [Hs12]
      · iapply (Entails.of_eq (pts_src (F := F) d L 12 396576#32 rfl (k0_off1_inb L 12) X)); iexact Hs12
      · iapply (Entails.of_eq (dst_done (F := F) d L 12 396576#32 rfl (k0_off1_inb L 12) X f (tile_body.sl.dma0_27 d L X f0) (by
          unfold tile_body.sl.dma0_27 tile_body.sl.dma0_22
          exact Cert.LibWholePiece.read_writes_whole_cons _ _ _ _))); iexact Hd12
    isplitl [Hs13 Hd13]
    · isplitl [Hs13]
      · iapply (Entails.of_eq (pts_src (F := F) d L 13 429624#32 rfl (k0_off1_inb L 13) X)); iexact Hs13
      · iapply (Entails.of_eq (dst_done (F := F) d L 13 429624#32 rfl (k0_off1_inb L 13) X f (tile_body.sl.dma0_29 d L X f1) (by
          unfold tile_body.sl.dma0_29 tile_body.sl.dma0_24
          exact Cert.LibWholePiece.read_writes_whole_cons _ _ _ _))); iexact Hd13
    isplitl [Hs14 Hd14]
    · isplitl [Hs14]
      · iapply (Entails.of_eq (pts_src (F := F) d L 14 462672#32 rfl (k0_off1_inb L 14) X)); iexact Hs14
      · iapply (Entails.of_eq (dst_done (F := F) d L 14 462672#32 rfl (k0_off1_inb L 14) X f (tile_body.sl.dma0_31 d L X f2) (by
          unfold tile_body.sl.dma0_31 tile_body.sl.dma0_26
          exact Cert.LibWholePiece.read_writes_whole_cons _ _ _ _))); iexact Hd14
    isplitl [Hs15 Hd15]
    · isplitl [Hs15]
      · iapply (Entails.of_eq (pts_src (F := F) d L 15 495720#32 rfl (k0_off1_inb L 15) X)); iexact Hs15
      · iapply (Entails.of_eq (dst_done (F := F) d L 15 495720#32 rfl (k0_off1_inb L 15) X f (tile_body.sl.dma0_33 d L X f0) (by
          unfold tile_body.sl.dma0_33 tile_body.sl.dma0_28
          exact Cert.LibWholePiece.read_writes_whole_cons _ _ _ _))); iexact Hd15
    isplitl [Hs16 Hd16]
    · isplitl [Hs16]
      · iapply (Entails.of_eq (pts_src (F := F) d L 16 528768#32 rfl (k0_off1_inb L 16) X)); iexact Hs16
      · iapply (Entails.of_eq (dst_done (F := F) d L 16 528768#32 rfl (k0_off1_inb L 16) X f (tile_body.sl.dma0_35 d L X f1) (by
          unfold tile_body.sl.dma0_35 tile_body.sl.dma0_30
          exact Cert.LibWholePiece.read_writes_whole_cons _ _ _ _))); iexact Hd16
    isplitl [Hs17 Hd17]
    · isplitl [Hs17]
      · iapply (Entails.of_eq (pts_src (F := F) d L 17 561816#32 rfl (k0_off1_inb L 17) X)); iexact Hs17
      · iapply (Entails.of_eq (dst_done (F := F) d L 17 561816#32 rfl (k0_off1_inb L 17) X f (tile_body.sl.dma0_37 d L X f2) (by
          unfold tile_body.sl.dma0_37 tile_body.sl.dma0_32
          exact Cert.LibWholePiece.read_writes_whole_cons _ _ _ _))); iexact Hd17
    isplitl [Hs18 Hd18]
    · isplitl [Hs18]
      · iapply (Entails.of_eq (pts_src (F := F) d L 18 594864#32 rfl (k0_off1_inb L 18) X)); iexact Hs18
      · iapply (Entails.of_eq (dst_done (F := F) d L 18 594864#32 rfl (k0_off1_inb L 18) X f (tile_body.sl.dma0_39 d L X f0) (by
          unfold tile_body.sl.dma0_39 tile_body.sl.dma0_34
          exact Cert.LibWholePiece.read_writes_whole_cons _ _ _ _))); iexact Hd18
    isplitl [Hs19 Hd19]
    · isplitl [Hs19]
      · iapply (Entails.of_eq (pts_src (F := F) d L 19 627912#32 rfl (k0_off1_inb L 19) X)); iexact Hs19
      · iapply (Entails.of_eq (dst_done (F := F) d L 19 627912#32 rfl (k0_off1_inb L 19) X f (tile_body.sl.dma0_41 d L X f1) (by
          unfold tile_body.sl.dma0_41 tile_body.sl.dma0_36
          exact Cert.LibWholePiece.read_writes_whole_cons _ _ _ _))); iexact Hd19
    isplitl [Hs20 Hd20]
    · isplitl [Hs20]
      · iapply (Entails.of_eq (pts_src (F := F) d L 20 660960#32 rfl (k0_off1_inb L 20) X)); iexact Hs20
      · iapply (Entails.of_eq (dst_done (F := F) d L 20 660960#32 rfl (k0_off1_inb L 20) X f (tile_body.sl.dma0_43 d L X f2) (by
          unfold tile_body.sl.dma0_43 tile_body.sl.dma0_38
          exact Cert.LibWholePiece.read_writes_whole_cons _ _ _ _))); iexact Hd20
    isplitl [Hs21 Hd21]
    · isplitl [Hs21]
      · iapply (Entails.of_eq (pts_src (F := F) d L 21 694008#32 rfl (k0_off1_inb L 21) X)); iexact Hs21
      · iapply (Entails.of_eq (dst_done (F := F) d L 21 694008#32 rfl (k0_off1_inb L 21) X f (tile_body.sl.dma0_45 d L X f0) (by
          unfold tile_body.sl.dma0_45 tile_body.sl.dma0_40
          exact Cert.LibWholePiece.read_writes_whole_cons _ _ _ _))); iexact Hd21
    isplitl [Hs22 Hd22]
    · isplitl [Hs22]
      · iapply (Entails.of_eq (pts_src (F := F) d L 22 727056#32 rfl (k0_off1_inb L 22) X)); iexact Hs22
      · iapply (Entails.of_eq (dst_done (F := F) d L 22 727056#32 rfl (k0_off1_inb L 22) X f (tile_body.sl.dma0_47 d L X f1) (by
          unfold tile_body.sl.dma0_47 tile_body.sl.dma0_42
          exact Cert.LibWholePiece.read_writes_whole_cons _ _ _ _))); iexact Hd22
    isplitl [Hs23 Hd23]
    · isplitl [Hs23]
      · iapply (Entails.of_eq (pts_src (F := F) d L 23 760104#32 rfl (k0_off1_inb L 23) X)); iexact Hs23
      · iapply (Entails.of_eq (dst_done (F := F) d L 23 760104#32 rfl (k0_off1_inb L 23) X f (tile_body.sl.dma0_49 d L X f2) (by
          unfold tile_body.sl.dma0_49 tile_body.sl.dma0_44
          exact Cert.LibWholePiece.read_writes_whole_cons _ _ _ _))); iexact Hd23
    isplitl [Hs24 Hd24]
    · isplitl [Hs24]
      · iapply (Entails.of_eq (pts_src (F := F) d L 24 793152#32 rfl (k0_off1_inb L 24) X)); iexact Hs24
      · iapply (Entails.of_eq (dst_done (F := F) d L 24 793152#32 rfl (k0_off1_inb L 24) X f (tile_body.sl.dma0_51 d L X f0) (by
          unfold tile_body.sl.dma0_51 tile_body.sl.dma0_46
          exact Cert.LibWholePiece.read_writes_whole_cons _ _ _ _))); iexact Hd24
    isplitl [Hs25 Hd25]
    · isplitl [Hs25]
      · iapply (Entails.of_eq (pts_src (F := F) d L 25 826200#32 rfl (k0_off1_inb L 25) X)); iexact Hs25
      · iapply (Entails.of_eq (dst_done (F := F) d L 25 826200#32 rfl (k0_off1_inb L 25) X f (tile_body.sl.dma0_53 d L X f1) (by
          unfold tile_body.sl.dma0_53 tile_body.sl.dma0_48
          exact Cert.LibWholePiece.read_writes_whole_cons _ _ _ _))); iexact Hd25
    isplitl [Hs26 Hd26]
    · isplitl [Hs26]
      · iapply (Entails.of_eq (pts_src (F := F) d L 26 859248#32 rfl (k0_off1_inb L 26) X)); iexact Hs26
      · iapply (Entails.of_eq (dst_done (F := F) d L 26 859248#32 rfl (k0_off1_inb L 26) X f (tile_body.sl.dma0_55 d L X f2) (by
          unfold tile_body.sl.dma0_55 tile_body.sl.dma0_50
          exact Cert.LibWholePiece.read_writes_whole_cons _ _ _ _))); iexact Hd26
    isplitl [Hs27 Hd27]
    · isplitl [Hs27]
      · iapply (Entails.of_eq (pts_src (F := F) d L 27 892296#32 rfl (k0_off1_inb L 27) X)); iexact Hs27
      · iapply (Entails.of_eq (dst_done (F := F) d L 27 892296#32 rfl (k0_off1_inb L 27) X f (tile_body.sl.dma0_57 d L X f0) (by
          unfold tile_body.sl.dma0_57 tile_body.sl.dma0_52
          exact Cert.LibWholePiece.read_writes_whole_cons _ _ _ _))); iexact Hd27
    isplitl [Hs28 Hd28]
    · isplitl [Hs28]
      · iapply (Entails.of_eq (pts_src (F := F) d L 28 925344#32 rfl (k0_off1_inb L 28) X)); iexact Hs28
      · iapply (Entails.of_eq (dst_done (F := F) d L 28 925344#32 rfl (k0_off1_inb L 28) X f (tile_body.sl.dma0_59 d L X f1) (by
          unfold tile_body.sl.dma0_59 tile_body.sl.dma0_54
          exact Cert.LibWholePiece.read_writes_whole_cons _ _ _ _))); iexact Hd28
    isplitl [Hs29 Hd29]
    · isplitl [Hs29]
      · iapply (Entails.of_eq (pts_src (F := F) d L 29 958392#32 rfl (k0_off1_inb L 29) X)); iexact Hs29
      · iapply (Entails.of_eq (dst_done (F := F) d L 29 958392#32 rfl (k0_off1_inb L 29) X f (tile_body.sl.dma0_61 d L X f2) (by
          unfold tile_body.sl.dma0_61 tile_body.sl.dma0_56
          exact Cert.LibWholePiece.read_writes_whole_cons _ _ _ _))); iexact Hd29
    isplitl [Hs30 Hd30]
    · isplitl [Hs30]
      · iapply (Entails.of_eq (pts_src (F := F) d L 30 991440#32 rfl (k0_off1_inb L 30) X)); iexact Hs30
      · iapply (Entails.of_eq (dst_done (F := F) d L 30 991440#32 rfl (k0_off1_inb L 30) X f (tile_body.sl.dma0_62 d L X f0) (by
          unfold tile_body.sl.dma0_62 tile_body.sl.dma0_58
          exact Cert.LibWholePiece.read_writes_whole_cons _ _ _ _))); iexact Hd30
    isplitl [Hs31]
    · iapply (Entails.of_eq (pts_src (F := F) d L 31 1024488#32 rfl (k0_off1_inb L 31) X)); iexact Hs31
    · iapply (Entails.of_eq (dst_done (F := F) d L 31 1024488#32 rfl (k0_off1_inb L 31) X f (tile_body.sl.dma0_63 d L X f1) (by
        unfold tile_body.sl.dma0_63 tile_body.sl.dma0_60
        exact Cert.LibWholePiece.read_writes_whole_cons _ _ _ _))); iexact Hd31
  isplitl [Hb0 Hb1 Hb2 Hbufs]
  · isplitl [Hb0]; · iexists _; iapply (Entails.of_eq (pts_b0 (F := F) d L _)); iexact Hb0
    isplitl [Hb1]; · iexists _; iapply (Entails.of_eq (pts_b1 (F := F) d L _)); iexact Hb1
    isplitl [Hb2]; · iexists _; iapply (Entails.of_eq (pts_b2 (F := F) d L _)); iexact Hb2
    iexact Hbufs
  isplitl [Hm3 Hm4 Hm5 Hm6 Hm7 Hm8 Hsems]
  · isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    iexact Hsems
  iexists _; isplitr
  rotate_left
  · iexact HO
  · ipureintro
    repeat (refine waits_step _ ?_)
    exact fun p hp => .inl hp

end Tile

end Cert.Proof.KI

end
-- ==== Proof.LaunchKI.lean ====
/-
  The launch. Each tile's task is the body obligation; a SparseCore's sixteen tiles' chunks are exactly what its call
  hands it, so the split among the tiles is the identity. On the TensorCore, @main transposes the argument so that
  axis 0 comes third and flattens it, hands both flat arrays chunk by chunk to the two SparseCores, gets them back with
  the destination equal to the source, unflattens and moves the axis back: the four layout steps compose to the
  identity, so the result array ends equal to the argument, which is never written.
-/
import proofs.«208078_g33122787787296_cont_8to1_b_435_17_alg».proof.Proof.TileKI
import proofs.«208078_g33122787787296_cont_8to1_b_435_17_alg».proof.Proof.Layout

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_copy (coordsV c s)
          srcV (Memref.isWhole_whole _) dstV (Memref.isWhole_whole _) b0 (Memref.isWhole_whole _) b1 (Memref.isWhole_whole _) b2 (Memref.isWhole_whole _)
          cc0_scratch3 cc0_scratch4 cc0_scratch5 cc0_scratch6 cc0_scratch7 cc0_scratch8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (X f₀ : Dev nD → Flat F) : (K (F := F)).TileObl (D (F := F)) 𝒱 (P X f₀) v₀ 0 := by
  intro d c i O W hO _ _
  simp only [show (P X f₀).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) facts (X d) (f₀ d) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

set_option maxHeartbeats 2000000 in
/-- A SparseCore's chunks are its sixteen tiles' chunks, before and after. -/
theorem vecSplit (X f₀ : Dev nD → Flat F) : (K (F := F)).VecSplit' (P X f₀) 0 := by
  intro d c
  show coreRes d (X d) (f₀ d) (Fin.cast nCore_zero c) ⊢ |={Set.univ}=> iprop(
      (bigSep Finset.univ fun i : Fin ((K (F := F)).nSub 0) => tileRes d (X d) (f₀ d) (Fin.cast nCore_zero c) (Fin.cast nSub_zero i))
      ∗ ((bigSep Finset.univ fun i : Fin ((K (F := F)).nSub 0) => tileRes d (X d) (X d) (Fin.cast nCore_zero c) (Fin.cast nSub_zero i))
          -∗ coreRes d (X d) (X d) (Fin.cast nCore_zero c)))
  rw [bigSep_tasks (F := F) (fun i => tileRes d (X d) (f₀ d) (Fin.cast nCore_zero c) i),
    bigSep_tasks (F := F) (fun i => tileRes d (X d) (X d) (Fin.cast nCore_zero c) i)]
  unfold coreRes
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (X f₀ : Dev nD → Flat F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X f₀).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

variable (m : (ℓ : Loc nD τ sig) → Buf (Elt F) ℓ) (ρ : Dev nD → PrngReg)

abbrev argLoc (d : Dev nD) : Loc nD τ sig := (SparseCore.T d).loc main_arg0
abbrev resLoc (d : Dev nD) : Loc nD τ sig := (SparseCore.T d).loc main_v4

abbrev a0' : DevRef τ sig := Proc.devRef .tc (main_arg0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The TensorCore's arrays, all unscoped. -/
abbrev S6 : Finset (DevRef τ sig) := {a0', v0', v1', v2', v3', v4'}

/-- The four layout steps of @main, as operations. -/
abbrev op1 : HloOp τ sig (Elt F) := StableHlo.unary main_arg0 main_v0 ((transpose S243x17x32x256 [1, 2, 0, 3] · Facts₀.transposes_S32x243x17x256_S243x17x32x256_1_2_0_3) : (⟨S32x243x17x256, .f32⟩ : BufTy).Contents (Elt F) → (⟨S243x17x32x256, .f32⟩ : BufTy).Contents (Elt F))
abbrev op2 : HloOp τ sig (Elt F) := StableHlo.reshape main_v0 main_v1 rfl Facts₀.shapeCasts_S243x17x32x256_S33841152
abbrev op3 : HloOp τ sig (Elt F) := StableHlo.reshape main_v2 main_v3 rfl Facts₀.shapeCasts_S33841152_S243x17x32x256
abbrev op4 : HloOp τ sig (Elt F) := StableHlo.unary main_v3 main_v4 ((transpose S32x243x17x256 [2, 0, 1, 3] · Facts₀.transposes_S243x17x32x256_S32x243x17x256_2_0_1_3) : (⟨S243x17x32x256, .f32⟩ : BufTy).Contents (Elt F) → (⟨S32x243x17x256, .f32⟩ : BufTy).Contents (Elt F))

omit [FloatOps F] in
theorem held_S6 (d : Dev nD) (W : Valuation τ sig (Elt F)) :
    (held (T d) S6 W : sProp 𝕄) = iprop((argLoc d ↦{fullShare} W a0') ∗ ((SparseCore.T d).loc main_v0 ↦{fullShare} W v0') ∗ (srcLoc d ↦{fullShare} W v1')
      ∗ (dstLoc d ↦{fullShare} W v2') ∗ ((SparseCore.T d).loc main_v3 ↦{fullShare} W v3') ∗ (resLoc d ↦{fullShare} W v4')) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((argLoc d ↦{fullShare} W main_arg0) ∗ ((SparseCore.T d).loc main_v0 ↦{fullShare} W main_v0) ∗ (srcLoc d ↦{fullShare} W main_v1)
      ∗ (dstLoc d ↦{fullShare} W main_v2) ∗ ((SparseCore.T d).loc main_v3 ↦{fullShare} W main_v3) ∗ (resLoc d ↦{fullShare} W main_v4)) := by
  unfold unscopedBufs
  rw [show (Finset.univ.filter fun b : Ref sig .tc => ¬ b.isScoped) = {main_arg0, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S6 (V0 m d) := by
  rw [unscopedBufs_eq, held_S6]; rfl

/-- What the source array holds when the call is made: the argument with axis 0 moved third, flattened. -/
def Xof (d : Dev nD) : Flat F :=
  shapeCast S33841152 (transpose S243x17x32x256 [1, 2, 0, 3] (m (argLoc d) : S32x243x17x256.Idx → Elt F .f32)
    Facts₀.transposes_S32x243x17x256_S243x17x32x256_1_2_0_3) Facts₀.shapeCasts_S243x17x32x256_S33841152
/-- What the destination holds then: its launch contents. -/
def f₀of (d : Dev nD) : Flat F := m (dstLoc d)

/-- The valuation when the call is made, and after it. -/
def V2 (d : Dev nD) : Valuation τ sig (Elt F) := (op2 (F := F)).result ((op1 (F := F)).result (V0 m d))
def V3 (d : Dev nD) : Valuation τ sig (Elt F) := Function.update (V2 m d) v2' (Xof m d)
def V5 (d : Dev nD) : Valuation τ sig (Elt F) := (op4 (F := F)).result ((op3 (F := F)).result (V3 m d))

theorem h1sub : (op1 (F := F)).bufs ⊆ S6 := show ({a0', v0'} : Finset (DevRef τ sig)) ⊆ S6 by decide
theorem h2sub : (op2 (F := F)).bufs ⊆ S6 := show ({v0', v1'} : Finset (DevRef τ sig)) ⊆ S6 by decide
theorem h3sub : (op3 (F := F)).bufs ⊆ S6 := show ({v2', v3'} : Finset (DevRef τ sig)) ⊆ S6 by decide
theorem h4sub : (op4 (F := F)).bufs ⊆ S6 := show ({v3', v4'} : Finset (DevRef τ sig)) ⊆ S6 by decide

theorem V2_v1 (d : Dev nD) : V2 m d v1' = Xof m d := by
  unfold V2 Xof op2 op1
  rw [StableHlo.reshape_result, StableHlo.unary_result]
  rfl
theorem V2_v2 (d : Dev nD) : V2 m d v2' = f₀of m d := by
  unfold V2 f₀of op2 op1
  rw [StableHlo.reshape_result_ne (r := main_v2), StableHlo.unary_result_ne (r := main_v2)]
  all_goals first | decide | rfl
theorem V3_v2 (d : Dev nD) : V3 m d v2' = Xof m d := Function.update_self _ _ _
theorem V3_ne (d : Dev nD) {b : DevRef τ sig} (h : b ≠ v2') : V3 m d b = V2 m d b := Function.update_of_ne h _ _

/-- After @main the result array holds the argument, and the argument is what it was. -/
theorem V5_v4 (d : Dev nD) : V5 m d v4' = (m (argLoc d) : S32x243x17x256.Idx → Elt F .f32) := by
  unfold V5 op4 op3
  rw [StableHlo.unary_result, StableHlo.reshape_result, V3_v2]
  exact Cert.Proof.Layout.roundtrip _ _ _ _ _
theorem V5_a0 (d : Dev nD) : V5 m d a0' = m (argLoc d) := by
  unfold V5 op4 op3
  rw [StableHlo.unary_result_ne (r := main_arg0), StableHlo.reshape_result_ne (r := main_arg0),
    V3_ne m d (show a0' ≠ v2' by decide)]
  · unfold V2 op2 op1
    rw [StableHlo.reshape_result_ne (r := main_arg0), StableHlo.unary_result_ne (r := main_arg0)]
    all_goals first | decide | rfl
  all_goals decide

/-- What the call takes for the two SparseCores, and what it hands back. -/
theorem st0_eq (d : Dev nD) (X f₀ : Dev nD → Flat F) :
    (bigSep Finset.univ fun c : Fin ((K (F := F)).nCore 0) => (P X f₀).st 0 d c) = iprop((srcLoc d ↦{fullShare} X d) ∗ (dstLoc d ↦{fullShare} f₀ d)) := by
  show (bigSep Finset.univ fun c : Fin ((K (F := F)).nCore 0) => coreRes d (X d) (f₀ d) (Fin.cast nCore_zero c)) = _
  rw [bigSep_cores (F := F) (fun c => coreRes d (X d) (f₀ d) c), arrays_split]
theorem dn0_eq (d : Dev nD) (X f₀ : Dev nD → Flat F) :
    (bigSep Finset.univ fun c : Fin ((K (F := F)).nCore 0) => (P X f₀).dn 0 d c) = iprop((srcLoc d ↦{fullShare} X d) ∗ (dstLoc d ↦{fullShare} X d)) := by
  show (bigSep Finset.univ fun c : Fin ((K (F := F)).nCore 0) => coreRes d (X d) (X d) (Fin.cast nCore_zero c)) = _
  rw [bigSep_cores (F := F) (fun c => coreRes d (X d) (X d) c), arrays_split]

/-- What @main leaves the claim: the argument at its launch contents, the result equal to it. -/
abbrev FIN (d : Dev nD) : sProp 𝕄 := iprop((argLoc d ↦{fullShare} m (argLoc d)) ∗ (resLoc d ↦{fullShare} (m (argLoc d) : S32x243x17x256.Idx → Elt F .f32)))

theorem hmain (κ : GSem nD τ sig → ℕ) (d : Dev nD) :
    iprop((K (F := F)).ctx EH (P (Xof m) (f₀of m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the transposition, then the flattening
  iapply (wp_hlo_within 𝒱 (SparseCore.T d) none Set.univ (op := op1) (S := S6) h1sub (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S6) h2sub (V := (op1 (F := F)).result (V0 m d))) $$ [Hb Hheld]
  · isplitl [Hb]; · iexact Hb
    iexact Hheld
  iintro ⟨Hb, Hheld⟩
  rw [wp_ret]; imodintro
  ihave Hh := (Entails.of_eq (held_S6 (F := F) d _)) $$ Hheld
  icases Hh with ⟨Ha0, Hv0, Hv1, Hv2, Hv3, Hv4⟩
  -- the call: both flat arrays, chunk by chunk, to the two SparseCores and back
  iapply ((K (F := F)).wp_run (D (F := F)) 𝒱 (EH := EH) (P := P (Xof m) (f₀of m)) κ d 0) $$ [Hst Hv1 Hv2 Hb Ha0 Hv0 Hv3 Hv4]
  isplitr; · iexact Hctx
  isplitl [Hst]; · iexact Hst
  isplitl [Hv1 Hv2]
  · rw [st0_eq, ← V2_v1 m d, ← V2_v2 m d]
    isplitl [Hv1]; · iexact Hv1
    iexact Hv2
  iintro ⟨Hst, Hdn⟩
  ihave Hdn' := (Entails.of_eq (dn0_eq d (Xof m) (f₀of m))) $$ Hdn
  icases Hdn' with ⟨Hv1, Hv2⟩
  -- the unflattening, then the transposition back
  iapply (wp_hlo_within 𝒱 (SparseCore.T d) none Set.univ (op := op3) (S := S6) h3sub (V := V3 m d)) $$ [Hb Ha0 Hv0 Hv1 Hv2 Hv3 Hv4]
  · isplitl [Hb]; · iexact Hb
    rw [held_S6, V3_v2, V3_ne m d (show a0' ≠ v2' by decide), V3_ne m d (show v0' ≠ v2' by decide), V3_ne m d (show v1' ≠ v2' by decide),
      V3_ne m d (show v3' ≠ v2' by decide), V3_ne m d (show v4' ≠ v2' by decide), V2_v1]
    isplitl [Ha0]; · iexact Ha0
    isplitl [Hv0]; · iexact Hv0
    isplitl [Hv1]; · iexact Hv1
    isplitl [Hv2]; · iexact Hv2
    isplitl [Hv3]; · iexact Hv3
    iexact Hv4
  iintro ⟨Hb, Hheld⟩
  rw [wp_ret]; imodintro
  iapply (wp_hlo_within 𝒱 (SparseCore.T d) none Set.univ (op := op4) (S := S6) h4sub (V := (op3 (F := F)).result (V3 m d))) $$ [Hb Hheld]
  · isplitl [Hb]; · iexact Hb
    iexact Hheld
  iintro ⟨Hb, Hheld⟩
  ihave Hh := (Entails.of_eq (held_S6 (F := F) d _)) $$ Hheld
  icases Hh with ⟨Ha0, -, -, -, -, Hv4⟩
  rw [wp_ret]; imodintro; imodintro
  isplitl [Hst]; · iexact Hst
  isplitl [Ha0]
  · iapply (Entails.of_eq (congrArg (fun v => (argLoc d ↦{fullShare} v : sProp 𝕄)) (V5_a0 m d))); iexact Ha0
  · iapply (Entails.of_eq (congrArg (fun v => (resLoc d ↦{fullShare} v : sProp 𝕄)) (V5_v4 m d))); iexact Hv4

def fq (d : Dev nD) (s' : Phys nD τ sig (Elt F)) : Prop :=
  s'.mem.mem (argLoc d) = m (argLoc d) ∧ s'.mem.mem (resLoc d) = (m (argLoc d) : S32x243x17x256.Idx → Elt F .f32)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := argLoc d) (I := Finset.univ) (q := fullShare) (f := m (argLoc d)))) $$ [HSI Ha]
  · isplitl [HSI] <;> iassumption
  icases H with ⟨%h1, HSI, -⟩
  ihave H := (SI_pointsTo_agree (st := s') (ℓ := resLoc d) (I := Finset.univ) (q := fullShare) (f := (m (argLoc d) : S32x243x17x256.Idx → Elt F .f32))) $$ [HSI Hr]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r => ∀ c : Dev nD,
  r.2.mem (argLoc c) = m (argLoc c) ∧ r.2.mem (resLoc c) = (m (argLoc c) : S32x243x17x256.Idx → Elt F .f32)

/-- Every weakly fair execution of the device's threads terminates, nothing faulting, with the argument unchanged and
    the result array equal to it. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (Xof m) (f₀of m)) facts v₀
    (fun q hq => match q with | 0 => nomatch hq)
    (fun q _ => match q with | 0 => tileObl (Xof m) (f₀of m))
    (fun q _ => match q with | 0 => SparseCore.Cfg.VecSplit.of_plain (vecSplit (Xof m) (f₀of m)))
    m ρ main (fun _ => iprop(emp)) (FIN m) (u₀ (F := F)) (sep_elim_left.trans (hu₀ (Xof m) (f₀of m))) (hmain m ρ) (fq m) (hfin m) (QC m) (fun _ h => h)

end Cert.Proof.KI

end
-- ==== Proof.RefRun.lean ====
/-
  The reference's run: `take` along the joint axis with the identity index list [0, …, 16]. Every index is in
  range, so the fill mask is all true and the gather reads each element from its own position: the result is the
  argument array.
-/
import proofs.«208078_g33122787787296_cont_8to1_b_435_17_alg».proof.Defs
import proofs.«208078_g33122787787296_cont_8to1_b_435_17_alg».proof.Proof.Gen.ReferenceIdeal
import Idealize.ShloMosaic.Lib.StableHlo.Run
import Idealize.ShloMosaic.Lib.ValueIdx
import Idealize.ShloMosaic.Lib.ReduceAll
import Idealize.ShloMosaic.Adequacy

noncomputable section

namespace Cert.Proof.RefRun

open Idealize.ShloMosaic Idealize.SL.Sem
open Cert.ReferenceIdeal Cert.ReferenceIdeal.Gen Idealize.ShloMosaic.TcCoe Idealize.ShloMosaic.StableHlo
open Idealize.ShloMosaic.ValueIdx

variable {F : FTy → Type} [FloatOps F]

/-! ## The program as a straight line -/

/-- The program's 24 operations in order, the two calls unfolded: the index list; then the callee's
    normalisation of the indices (a negative index has 17 added), the bounds mask (0 ≤ index ≤ 16, and-reduced over
    the unit axis), the gather along axis 2, the fill value, and the select between the gather and the fill. -/
abbrev ops : List (HloOp τ sig (Elt F)) :=
  [ nullary main_c (fun i => lit0 (S17.rowMajor i)),
    TRef.nullary main_call0.c (constantI S_ 32 0#32),
    TRef.unary main_call0.c main_call0.v0 (broadcastInDim S17 ![] bcast_S_S17),
    TRef.binary (.of main_c) main_call0.v0 main_call0.v1 (cmpi .slt),
    TRef.nullary main_call0.c_0 (constantI S_ 32 17#32),
    TRef.unary main_call0.c_0 main_call0.v2 (broadcastInDim S17 ![] bcast_S_S17),
    TRef.binary (.of main_c) main_call0.v2 main_call0.v3 addi,
    TRef.ternary main_call0.v1 main_call0.v3 (.of main_c) main_call0.call0.v0 select,
    TRef.unary main_call0.call0.v0 main_call0.v5 (broadcastInDim S17x1 ![0] bcast_S17_S17x1_0),
    TRef.nullary main_call0.c_1 (constantI S1 32 16#32),
    TRef.nullary main_call0.c_2 (constantI S_ 32 0#32),
    TRef.unary main_call0.c_2 main_call0.v6 (broadcastInDim S17x1 ![] bcast_S_S17x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S17x1 ![0, 1] bcast_S1x1_S17x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S17x1_S17_d1 h_S_),
    TRef.binary (.of main_arg0) main_call0.v5 main_call0.v13 (fun x i => Host.gather gather_S32x243x17x256_S17x1_S32x243x17x256_013_2_n_n_2_1_322431256 x i),
    TRef.unary main_call0.v12 main_call0.v14 (broadcastInDim S32x243x17x256 ![2] bcast_S17_S32x243x17x256_2),
    TRef.nullary main_call0.cst (constant S_ .f32 0x7FC00000#32),
    TRef.unary main_call0.cst main_call0.v15 (broadcastInDim S32x243x17x256 ![] bcast_S_S32x243x17x256),
    TRef.ternary main_call0.v14 main_call0.v13 main_call0.v15 main_call0.v16 select ]

set_option maxRecDepth 1024 in
/-- The program is that straight line: the two callees unfolded at their calls and sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

/-- Every weakly fair execution of the program ends with each buffer at the fold of the operations over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the straight line computes -/

/-- The index list: entry `k` is the word `k`. -/
def idx : IVec S17 32 := fun i => lit0 (S17.rowMajor i)

/-- The normalised indices: a negative index has 17 added. -/
def norm : IVec S17 32 :=
  select (cmpi .slt idx (broadcastInDim S17 ![] bcast_S_S17 (constantI S_ 32 0#32)))
    (addi idx (broadcastInDim S17 ![] bcast_S_S17 (constantI S_ 32 17#32))) idx

/-- The normalised indices as a 17 x 1 column: the gather's start indices. -/
def col : IVec S17x1 32 := broadcastInDim S17x1 ![0] bcast_S17_S17x1_0 norm

/-- The bounds mask: entry `k` says 0 ≤ index `k` ≤ 16. -/
def mask : IVec S17 1 :=
  Host.reduce IntOp.andi
    (andi (cmpi .sge col (broadcastInDim S17x1 ![] bcast_S_S17x1 (constantI S_ 32 0#32)))
      (cmpi .sle col (broadcastInDim S17x1 ![0, 1] bcast_S1x1_S17x1_0_1
        (broadcastInDim S1x1 ![1] bcast_S1_S1x1_1 (constantI S1 32 16#32)))))
    (constantI S_ 1 1#1) reducesTo_S17x1_S17_d1 h_S_

/-- The result as a function of the argument: where the mask holds the gathered element, elsewhere the fill. -/
def take (x : FVec F S32x243x17x256 .f32) : FVec F S32x243x17x256 .f32 :=
  select (broadcastInDim S32x243x17x256 ![2] bcast_S17_S32x243x17x256_2 mask)
    (Host.gather gather_S32x243x17x256_S17x1_S32x243x17x256_013_2_n_n_2_1_322431256 x col)
    (broadcastInDim S32x243x17x256 ![] bcast_S_S32x243x17x256 (constant S_ .f32 0x7FC00000#32))

/-- The fold of the operations at the result buffer is `take` of the argument's contents: each operation's result
    is read at its own buffer and every other buffer keeps what it held; at these literal references the typed
    references' transports are the identity. -/
theorem out_eq (V : Valuation τ sig (Elt F)) :
    after ops V (main_v0 : DevRef τ sig) = take (V (main_arg0 : DevRef τ sig)) := by
  after_results
  simp only [cast_eq]
  rfl

/-- No operation writes the argument's buffer. -/
theorem arg0_eq (V : Valuation τ sig (Elt F)) :
    after ops V (main_arg0 : DevRef τ sig) = V (main_arg0 : DevRef τ sig) := by
  after_results

/-! ## The index words -/

/-- Of each of the 17 index words `k`: it is not negative, it lies in [0, 16], and read as a signed integer it
    is `k`. -/
theorem lit0_facts : ∀ k : Fin 17,
    IntOp.cmpi .slt (lit0 k) 0#32 = 0#1 ∧ IntOp.cmpi .sge (lit0 k) 0#32 = 1#1
      ∧ IntOp.cmpi .sle (lit0 k) 16#32 = 1#1 ∧ (lit0 k).toInt.toNat = k.val := by
  decide

/-- No index is negative, so normalisation leaves the list as it is. -/
theorem norm_apply (i : S17.Idx) : norm i = lit0 (i 0) := by
  have hi : idx i = lit0 (i 0) := congrArg lit0 (Fin.ext (Shape.rowMajor_val_one i))
  show Scalar.select (IntOp.cmpi .slt (idx i) 0#32) (IntOp.addi (idx i) 17#32) (idx i) = _
  rw [hi, (lit0_facts (i 0)).1, select_zero]

/-- Row `k` of the column of start indices is the word `k`. -/
theorem col_apply (j : S17x1.Idx) : col j = lit0 (j 0) := by
  unfold col broadcastInDim
  exact norm_apply _

/-! ## The mask is all ones -/

/-- A left fold by `and` from 1 over words that are all 1 is 1. -/
theorem foldl_andi_one {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- Every index is in range, so every entry of the mask is 1. -/
theorem mask_apply (k : S17.Idx) : mask k = 1#1 := by
  unfold mask
  rw [Host.reduce_eq_foldl]
  refine foldl_andi_one _ (fun i => ?_) _
  show IntOp.andi (IntOp.cmpi .sge (col i) 0#32) (IntOp.cmpi .sle (col i) 16#32) = 1#1
  rw [col_apply, (lit0_facts (i 0)).2.1, (lit0_facts (i 0)).2.2.1]
  decide

/-! ## The gather with the identity index list -/

/-- The gather's dimension numbers: operand axis 2 is indexed and collapsed, the other three are copied whole. -/
abbrev gd : GatherDims S32x243x17x256 S17x1 S32x243x17x256 :=
  gather_S32x243x17x256_S17x1_S32x243x17x256_013_2_n_n_2_1_322431256

/-- The gather reads, at result index `j`, the operand at `j` with coordinate 2 replaced by start index number
    `j 2` clamped into [0, 16]; that start index is `j 2` itself, so the operand is read at `j`. -/
theorem gather_apply {α : Type} (x : S32x243x17x256.Idx → α) (j : S32x243x17x256.Idx) :
    Host.gather gd x col j = x j := by
  -- coordinates 0, 1 and 3 are offset coordinates: no start index, the result's own coordinate
  have h0 : gd.start j col 0 + gd.batchCoord j 0 + gd.offCoord j 0 = (j 0).val := by
    rw [GatherDims.batchCoord_eq_zero _ _ _ List.not_mem_nil]
    unfold GatherDims.start GatherDims.offCoord
    rw [dif_neg (show ¬ (0 : Fin 4) ∈ gd.startIndexMap by decide), dif_pos (show (0 : Fin 4) ∈ gd.sKept by decide),
      Nat.add_zero, Nat.zero_add]
    rfl
  have h1 : gd.start j col 1 + gd.batchCoord j 1 + gd.offCoord j 1 = (j 1).val := by
    rw [GatherDims.batchCoord_eq_zero _ _ _ List.not_mem_nil]
    unfold GatherDims.start GatherDims.offCoord
    rw [dif_neg (show ¬ (1 : Fin 4) ∈ gd.startIndexMap by decide), dif_pos (show (1 : Fin 4) ∈ gd.sKept by decide),
      Nat.add_zero, Nat.zero_add]
    rfl
  have h3 : gd.start j col 3 + gd.batchCoord j 3 + gd.offCoord j 3 = (j 3).val := by
    rw [GatherDims.batchCoord_eq_zero _ _ _ List.not_mem_nil]
    unfold GatherDims.start GatherDims.offCoord
    rw [dif_neg (show ¬ (3 : Fin 4) ∈ gd.startIndexMap by decide), dif_pos (show (3 : Fin 4) ∈ gd.sKept by decide),
      Nat.add_zero, Nat.zero_add]
    rfl
  -- coordinate 2 is collapsed: the start index for result row `j 2`, clamped
  have h2 : gd.start j col 2 + gd.batchCoord j 2 + gd.offCoord j 2 = (j 2).val := by
    have hm : (2 : Fin 4) ∈ gd.startIndexMap := by decide
    rw [GatherDims.batchCoord_eq_zero _ _ _ List.not_mem_nil,
      GatherDims.offCoord_eq_zero _ _ _ (show ¬ (2 : Fin 4) ∈ gd.sKept by decide)]
    unfold GatherDims.start
    rw [dif_pos hm]
    have hc : col (gd.siIdx j ⟨List.idxOf (2 : Fin 4) gd.startIndexMap, List.idxOf_lt_length_iff.2 hm⟩)
        = lit0 (j 2) := (col_apply _).trans (congrArg lit0 (Fin.ext rfl))
    rw [hc]
    have hj : (j 2).val < 17 := (j 2).isLt
    show min (lit0 (j 2)).toInt.toNat 16 + 0 + 0 = (j 2).val
    rw [(lit0_facts (j 2)).2.2.2]
    omega
  unfold Host.gather
  congr 1
  funext a
  refine Fin.ext ?_
  match a with
  | ⟨0, _⟩ => exact h0
  | ⟨1, _⟩ => exact h1
  | ⟨2, _⟩ => exact h2
  | ⟨3, _⟩ => exact h3

/-! ## The result is the argument -/

/-- With the mask all ones the select returns the gathered element everywhere, and the gathered element at `j` is
    the argument's at `j`. -/
theorem take_eq (x : FVec F S32x243x17x256 .f32) : take x = x := by
  funext j
  unfold take
  rw [select_apply]
  have hm : broadcastInDim S32x243x17x256 ![2] bcast_S17_S32x243x17x256_2 mask j = 1#1 := mask_apply _
  rw [hm, select_one, gather_apply]

/-! ## The run -/

/-- Every weakly fair execution of the reference ends, faults nowhere, leaves its argument unchanged and its result
    equal to the argument. -/
theorem run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run (Cert.ReferenceIdeal.defs (F := Ideal)) _ _).mono
    (fun _ h c => ⟨((h c main_v0).trans (out_eq _)).trans (take_eq _), (h c main_arg0).trans (arg0_eq _)⟩)
    (run_main m g)

end Cert.Proof.RefRun

end
-- ==== Proof.lean ====
/-
  The copy kernel against `take` with the identity index list.

  Kernel side: @main moves axis 0 of the [32, 243, 17, 256] argument to position 2 and flattens it; 32 SparseCore
  tiles each copy their 32 consecutive chunks of 33,048 elements from that flat array to the same place of a second
  flat array, through three scratch buffers with one incoming and one outgoing DMA semaphore per buffer, so that each
  semaphore carries one copy at a time; @main unflattens the second array and moves the axis back. The copy is the
  identity on the flat array and the four layout steps compose to the identity, so the result is the argument.
  Reference side: every index 0 … 16 is in range, so the fill mask is all ones and the gather with the identity list
  reads each element from its own position: the result is the argument.

  The three frames are the runs with the values dropped; the idealized program is the program's own text read at the
  ideal instance (no rewrite: the ledger is empty); the two results agree element by element because both are the
  argument. No law of arithmetic is used, so finiteness of the input is never needed.
-/
import proofs.«208078_g33122787787296_cont_8to1_b_435_17_alg».proof.Defs
import proofs.«208078_g33122787787296_cont_8to1_b_435_17_alg».proof.Proof.Gen.Kernel
import proofs.«208078_g33122787787296_cont_8to1_b_435_17_alg».proof.Proof.Gen.Kernel.Skeleton
import proofs.«208078_g33122787787296_cont_8to1_b_435_17_alg».proof.Proof.Gen.KernelIdeal
import proofs.«208078_g33122787787296_cont_8to1_b_435_17_alg».proof.Proof.Gen.KernelIdeal.Skeleton
import proofs.«208078_g33122787787296_cont_8to1_b_435_17_alg».proof.Proof.Gen.ReferenceIdeal
import proofs.«208078_g33122787787296_cont_8to1_b_435_17_alg».proof.Proof.Gen.Pre_finite_inputs
import proofs.«208078_g33122787787296_cont_8to1_b_435_17_alg».proof.Proof.LaunchKB
import proofs.«208078_g33122787787296_cont_8to1_b_435_17_alg».proof.Proof.LaunchKI
import proofs.«208078_g33122787787296_cont_8to1_b_435_17_alg».proof.Proof.RefRun
import Idealize.ShloMosaic.Adequacy
import Idealize.ShloMosaic.Init

noncomputable section

namespace Cert.Proof

open Idealize.ShloMosaic Idealize.SL.Sem

/-- The word-level kernel runs and leaves its argument unchanged. -/
theorem frame_k : Cert.frame_Kernel := fun m ρ _ =>
  (θ_run Cert.Kernel.defs _ _).mono (fun _ h c => (h c).1) (Cert.Proof.KB.run_main (F := Bits) m ρ)

/-- The idealized kernel runs and leaves its argument unchanged. -/
theorem frame_ki : Cert.frame_KernelIdeal := fun m ρ _ =>
  (θ_run Cert.KernelIdeal.defs _ _).mono (fun _ h c => (h c).1) (Cert.Proof.KI.run_main (F := Ideal) m ρ)

/-- The reference runs and leaves its argument unchanged. -/
theorem frame_ri : Cert.frame_ReferenceIdeal := fun m ρ _ =>
  (θ_run Cert.ReferenceIdeal.defs _ _).mono (fun _ h c => (h c).2) (Cert.Proof.RefRun.run m ρ)

/-- Both idealized programs end with the result array equal to the argument array, so from memories that agree on the
    argument their results are equal. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0), ?_, ?_⟩
  · exact (θ_run Cert.KernelIdeal.defs _ _).mono (fun _ h c => ⟨(h c).2, (h c).1⟩) (Cert.Proof.KI.run_main (F := Ideal) m ρ)
  · exact (θ_run Cert.ReferenceIdeal.defs _ _).mono (fun _ h c => ⟨(h c).1.trans (hagree c), (h c).2⟩) (Cert.Proof.RefRun.run m' ρ')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
